-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x64x256 : Shape := ⟨3, ![4096, 64, 256]⟩
abbrev S4096x64x2 : Shape := ⟨3, ![4096, 64, 2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x64x256 : S_.BroadcastsInDim S4096x64x256 (![] : Fin 0 → Fin S4096x64x256.rank)
  reducesTo_S4096x64x256_S_d0_1_2 : S4096x64x256.ReducesTo [0, 1, 2] S_

variable [Facts]

def fn {F : FTy → Type} [FloatOps F] (main_arg0 : FVec F S4096x256 .f32) (main_arg1 : FVec F S4096x64x256 .f32) (main_arg2 : IVec S4096x64x2 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x64x256 .f32 := Host.absf main_arg1
  let main_cst_0 : FVec F S_ .f32 := constant S_ .f32 0x7F800000#32
  let main_v5 : FVec F S4096x64x256 .f32 := broadcastInDim S4096x64x256 ![] bcast_S_S4096x64x256 main_cst_0
  let main_v6 : IVec S4096x64x256 1 := cmpf .olt main_v4 main_v5
  let main_c_1 : IVec S_ 1 := constantI S_ 1 1#1
  let main_v7 : IVec S_ 1 := (fun x v => Host.reduce IntOp.andi x v reducesTo_S4096x64x256_S_d0_1_2 h_S_) main_v6 main_c_1
  let main_v8 : IVec S_ 1 := andi main_v3 main_v7
  main_v8
-- ==== Kernel.lean ====
abbrev S4096x256 : Shape := ⟨2, ![4096, 256]⟩
abbrev S4096x64x256 : Shape := ⟨3, ![4096, 64, 256]⟩
abbrev S4096x64x2 : Shape := ⟨3, ![4096, 64, 2]⟩
abbrev S5 : Shape := ⟨1, ![5]⟩
abbrev S4096x64x1 : Shape := ⟨3, ![4096, 64, 1]⟩
abbrev S4096x64 : Shape := ⟨2, ![4096, 64]⟩
abbrev S_ : Shape := ⟨0, ![]⟩
abbrev S4096x1 : Shape := ⟨2, ![4096, 1]⟩
abbrev S4096 : Shape := ⟨1, ![4096]⟩
abbrev S128x256 : Shape := ⟨2, ![128, 256]⟩
abbrev S128x64x256 : Shape := ⟨3, ![128, 64, 256]⟩
abbrev S128x64 : Shape := ⟨2, ![128, 64]⟩
abbrev S128x1 : Shape := ⟨2, ![128, 1]⟩
abbrev S128x16x256 : Shape := ⟨3, ![128, 16, 256]⟩
abbrev S128x1x256 : Shape := ⟨3, ![128, 1, 256]⟩
abbrev S128x16 : Shape := ⟨2, ![128, 16]⟩
abbrev S128 : Shape := ⟨1, ![128]⟩
abbrev S1x4 : Shape := ⟨2, ![1, 4]⟩
abbrev S4096x4 : Shape := ⟨2, ![4096, 4]⟩
abbrev S4 : Shape := ⟨1, ![4]⟩
abbrev S2x2 : Shape := ⟨2, ![2, 2]⟩
abbrev S5x1 : Shape := ⟨2, ![5, 1]⟩
abbrev S1x4096 : Shape := ⟨2, ![1, 4096]⟩
abbrev S5x4096 : Shape := ⟨2, ![5, 4096]⟩
abbrev S5x4 : Shape := ⟨2, ![5, 4]⟩
abbrev S5x2x2 : Shape := ⟨3, ![5, 2, 2]⟩

abbrev nBuf : Space → Nat
  | .hbm => 76
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x64x256, .f32⟩
  | .hbm, ⟨2, _⟩ => ⟨S4096x64x2, .i32⟩
  | .hbm, ⟨3, _⟩ => ⟨S5, .f32⟩
  | .hbm, ⟨4, _⟩ => ⟨S4096x64x1, .i32⟩
  | .hbm, ⟨5, _⟩ => ⟨S4096x64, .i32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .hbm, ⟨10, _⟩ => ⟨S4096x1, .i1⟩
  | .hbm, ⟨11, _⟩ => ⟨S4096, .i1⟩
  | .hbm, ⟨12, _⟩ => ⟨S4096x64, .i32⟩
  | .hbm, ⟨13, _⟩ => ⟨S_, .i32⟩
  | .hbm, ⟨14, _⟩ => ⟨S_, .i32⟩
  | .hbm, ⟨15, _⟩ => ⟨S4096x64, .i32⟩
  | .hbm, ⟨16, _⟩ => ⟨S_, .i32⟩
  | .hbm, ⟨17, _⟩ => ⟨S4096x64, .i32⟩
  | .hbm, ⟨18, _⟩ => ⟨S4096x64, .i1⟩
  | .hbm, ⟨19, _⟩ => ⟨S4096x64, .i1⟩
  | .hbm, ⟨20, _⟩ => ⟨S_, .i1⟩
  | .hbm, ⟨21, _⟩ => ⟨S4096, .i1⟩
  | .hbm, ⟨22, _⟩ => ⟨S4096x64, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1x4, .i32⟩
  | .hbm, ⟨35, _⟩ => ⟨S4096x4, .i32⟩
  | .hbm, ⟨36, _⟩ => ⟨S4096x4, .i32⟩
  | .hbm, ⟨37, _⟩ => ⟨S4096x4, .i1⟩
  | .hbm, ⟨38, _⟩ => ⟨S4096x4, .f32⟩
  | .hbm, ⟨39, _⟩ => ⟨S_, .f32⟩
  | .hbm, ⟨40, _⟩ => ⟨S4, .f32⟩
  | .hbm, ⟨41, _⟩ => ⟨S2x2, .f32⟩
  | .hbm, ⟨42, _⟩ => ⟨S5x1, .f32⟩
  | .hbm, ⟨43, _⟩ => ⟨S1x4096, .i1⟩
  | .hbm, ⟨44, _⟩ => ⟨S1x4096, .i1⟩
  | .hbm, ⟨45, _⟩ => ⟨S1x4096, .f32⟩
  | .hbm, ⟨46, _⟩ => ⟨S1x4096, .f32⟩
  | .hbm, ⟨47, _⟩ => ⟨S1x4096, .i1⟩
  | .hbm, ⟨48, _⟩ => ⟨S1x4096, .i1⟩
  | .hbm, ⟨49, _⟩ => ⟨S5x4096, .f32⟩
  | .hbm, ⟨50, _⟩ => ⟨S5x4096, .f32⟩
  | .hbm, ⟨51, _⟩ => ⟨S5x4096, .i1⟩
  | .hbm, ⟨52, _⟩ => ⟨S1x4096, .i1⟩
  | .hbm, ⟨53, _⟩ => ⟨S1x4096, .i1⟩
  | .hbm, ⟨54, _⟩ => ⟨S5x4096, .f32⟩
  | .hbm, ⟨55, _⟩ => ⟨S5x4096, .f32⟩
  | .hbm, ⟨56, _⟩ => ⟨S5x4096, .i1⟩
  | .hbm, ⟨57, _⟩ => ⟨S1x4096, .i1⟩
  | .hbm, ⟨58, _⟩ => ⟨S5x4096, .f32⟩
  | .hbm, ⟨59, _⟩ => ⟨S5x4096, .f32⟩
  | .hbm, ⟨60, _⟩ => ⟨S5x4096, .f32⟩
  | .hbm, ⟨61, _⟩ => ⟨S5x4096, .f32⟩
  | .hbm, ⟨62, _⟩ => ⟨S5x4096, .i1⟩
  | .hbm, ⟨63, _⟩ => ⟨S_, .i1⟩
  | .hbm, ⟨64, _⟩ => ⟨S5x4096, .i1⟩
  | .hbm, ⟨65, _⟩ => ⟨S5x4096, .i1⟩
  | .hbm, ⟨66, _⟩ => ⟨S5x4096, .i1⟩
  | .hbm, ⟨67, _⟩ => ⟨S5x4096, .i1⟩
  | .hbm, ⟨68, _⟩ => ⟨S5x4096, .i1⟩
  | .hbm, ⟨69, _⟩ => ⟨S5x4096, .i1⟩
  | .hbm, ⟨70, _⟩ => ⟨S5x4096, .i1⟩
  | .hbm, ⟨71, _⟩ => ⟨S5x4096, .f32⟩
  | .hbm, ⟨72, _⟩ => ⟨S5x4, .f32⟩
  | .hbm, ⟨73, _⟩ => ⟨S5x2x2, .f32⟩
  | .hbm, ⟨74, _⟩ => ⟨S2x2, .i32⟩
  | .hbm, ⟨75, _⟩ => ⟨S5x2x2, .i32⟩
  | .local _ .vmem, ⟨0, _⟩ => ⟨S128x256, .f32⟩
  | .local _ .vmem, ⟨1, _⟩ => ⟨S128x256, .f32⟩
  | .local _ .vmem, ⟨2, _⟩ => ⟨S128x64x256, .f32⟩
  | .local _ .vmem, ⟨3, _⟩ => ⟨S128x64x256, .f32⟩
  | .local _ .vmem, ⟨4, _⟩ => ⟨S128x64, .f32⟩
  | .local _ .vmem, ⟨5, _⟩ => ⟨S128x64, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_call2_v0 : Ref sig .tc := ⟨.hbm, 64, rfl⟩
abbrev main_call2_v1 : Ref sig .tc := ⟨.hbm, 65, rfl⟩
abbrev main_v46 : Ref sig .tc := ⟨.hbm, 66, rfl⟩
abbrev main_call3_v0 : Ref sig .tc := ⟨.hbm, 67, rfl⟩
abbrev main_v47 : Ref sig .tc := ⟨.hbm, 68, rfl⟩
abbrev main_call4_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4096x64x2_S4096x64x1_0_0_0 : S4096x64x2.Slices ![0, 0, 0] S4096x64x1
  shapeCasts_S4096x64x1_S4096x64 : S4096x64x1.ShapeCasts S4096x64
  bcast_S_S4096x64 : S_.BroadcastsInDim S4096x64 (![] : Fin 0 → Fin S4096x64.rank)
  slices_S4096x64_S4096x1_0_0 : S4096x64.Slices ![0, 0] S4096x1
  shapeCasts_S4096x1_S4096 : S4096x1.ShapeCasts S4096
  natLt_1_32 : 1 < 32
  bcast_S_S_ : S_.BroadcastsInDim S_ (![] : Fin 0 → Fin S_.rank)
  reduceWindows_S4096x64_S4096x64_w1s1p0_0_w64s1p63_0 : S4096x64.ReduceWindows (![1, 64] : Fin 2 → Nat) ![1, 1] ![0, 63] ![0, 0] S4096x64
  h_S_ : 0 < S_.numel
  reducesTo_S4096x64_S4096_d1 : S4096x64.ReducesTo [1] S4096
  inb_S128x256_S128x256_0_0 : ∀ a, (![0, 0] : Fin 2 → Nat) a + S128x256.size a ≤ S128x256.size a
  h_S128x256 : 0 < S128x256.numel
  inb_S128x64x256_S128x16x256_0_0_0 : ∀ a, (![0, 0, 0] : Fin 3 → Nat) a + S128x16x256.size a ≤ S128x64x256.size a
  h_S128x16x256 : 0 < S128x16x256.numel
  shapeCasts_S128x256_S128x1x256 : S128x256.ShapeCasts S128x1x256
  broadcasts_S128x1x256_S128x16x256 : S128x1x256.Broadcasts S128x16x256
  reduces_S128x16x256_S128x16 : S128x16x256.Reduces [2] S128x16
  inb_S128x64_S128x16_0_0 : ∀ a, (![0, 0] : Fin 2 → Nat) a + S128x16.size a ≤ S128x64.size a
  h_S128x16 : 0 < S128x16.numel
  shapeCasts_S128x16_S128x16 : S128x16.ShapeCasts S128x16
  inb_S128x64x256_S128x16x256_0_16_0 : ∀ a, (![0, 16, 0] : Fin 3 → Nat) a + S128x16x256.size a ≤ S128x64x256.size a
  inb_S128x64_S128x16_0_16 : ∀ a, (![0, 16] : Fin 2 → Nat) a + S128x16.size a ≤ S128x64.size a
  inb_S128x64x256_S128x16x256_0_32_0 : ∀ a, (![0, 32, 0] : Fin 3 → Nat) a + S128x16x256.size a ≤ S128x64x256.size a
  inb_S128x64_S128x16_0_32 : ∀ a, (![0, 32] : Fin 2 → Nat) a + S128x16.size a ≤ S128x64.size a
  inb_S128x64x256_S128x16x256_0_48_0 : ∀ a, (![0, 48, 0] : Fin 3 → Nat) a + S128x16x256.size a ≤ S128x64x256.size a
  inb_S128x64_S128x16_0_48 : ∀ a, (![0, 48] : Fin 2 → Nat) a + S128x16.size a ≤ S128x64.size a
  inb_S128x64_S128x64_0_0 : ∀ a, (![0, 0] : Fin 2 → Nat) a + S128x64.size a ≤ S128x64.size a
  h_S128x64 : 0 < S128x64.numel
  slices_S128x64_o0_0_S128x1 : S128x64.Slices ![0, 0] S128x1
  inb_S128x1_S128x1_0_0 : ∀ a, (![0, 0] : Fin 2 → Nat) a + S128x1.size a ≤ S128x1.size a
  h_S128x1 : 0 < S128x1.numel
  shapeCasts_S128x64_S128x64 : S128x64.ShapeCasts S128x64
  reduces_S128x64_S128 : S128x64.Reduces [1] S128
  shapeCasts_S128_S128x1 : S128.ShapeCasts S128x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  reducesTo_S4096x4_S4_d0 : S4096x4.ReducesTo [0] S4
  shapeCasts_S4_S2x2 : S4.ShapeCasts S2x2
  bcast_S5_S5x1_0 : S5.BroadcastsInDim S5x1 (![0] : Fin 1 → Fin S5x1.rank)
  bcast_S4096_S1x4096_1 : S4096.BroadcastsInDim S1x4096 (![1] : Fin 1 → Fin S1x4096.rank)
  bcast_S5x1_S5x4096_0_1 : S5x1.BroadcastsInDim S5x4096 (![0, 1] : Fin 2 → Fin S5x4096.rank)
  bcast_S1x4096_S5x4096_0_1 : S1x4096.BroadcastsInDim S5x4096 (![0, 1] : Fin 2 → Fin S5x4096.rank)
  bcast_S_S5x4096 : S_.BroadcastsInDim S5x4096 (![] : Fin 0 → Fin S5x4096.rank)
  shapeCasts_S5x4_S5x2x2 : S5x4.ShapeCasts S5x2x2
  dot_S5x4096_S4096x4_S5x4_1_0_0_1_n_n_wf : DotDims.WF S5x4096 S4096x4 S5x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x256.size a ≤ S4096x64x256.size a
  hwx0_1 : ∀ i : grid0.Coords, EltTy.bits .f32 = 32 ∨ (Rect.block (s := S4096x64x256) S128x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)

variable [Facts₀]

def dot_S5x4096_S4096x4_S5x4_1_0_0_1_n_n : DotDims S5x4096 S4096x4 S5x4 where
  lhsContracting := [1]
  rhsContracting := [0]
  lhsNonContracting := [0]
  rhsNonContracting := [1]
  lhsBatch := []
  rhsBatch := []
  wf := dot_S5x4096_S4096x4_S5x4_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x64x256 : Shape := ⟨3, ![4096, 64, 256]⟩
abbrev S4096x64x2 : Shape := ⟨3, ![4096, 64, 2]⟩
abbrev S5 : Shape := ⟨1, ![5]⟩
abbrev S4096x64x1 : Shape := ⟨3, ![4096, 64, 1]⟩
abbrev S4096x64 : Shape := ⟨2, ![4096, 64]⟩
abbrev S_ : Shape := ⟨0, ![]⟩
abbrev S4096x1 : Shape := ⟨2, ![4096, 1]⟩
abbrev S4096 : Shape := ⟨1, ![4096]⟩
abbrev S4096x1x256 : Shape := ⟨3, ![4096, 1, 256]⟩
abbrev S1x4 : Shape := ⟨2, ![1, 4]⟩
abbrev S4096x4 : Shape := ⟨2, ![4096, 4]⟩
abbrev S4 : Shape := ⟨1, ![4]⟩
abbrev S2x2 : Shape := ⟨2, ![2, 2]⟩
abbrev S5x1 : Shape := ⟨2, ![5, 1]⟩
abbrev S1x4096 : Shape := ⟨2, ![1, 4096]⟩
abbrev S5x4096 : Shape := ⟨2, ![5, 4096]⟩
abbrev S5x4 : Shape := ⟨2, ![5, 4]⟩
abbrev S5x2x2 : Shape := ⟨3, ![5, 2, 2]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x64x256, .f32⟩
  | .hbm, ⟨2, _⟩ => ⟨S4096x64x2, .i32⟩
  | .hbm, ⟨3, _⟩ => ⟨S5, .f32⟩
  | .hbm, ⟨4, _⟩ => ⟨S4096x64x1, .i32⟩
  | .hbm, ⟨5, _⟩ => ⟨S4096x64, .i32⟩
  | .hbm, ⟨6, _⟩ => ⟨S_, .i32⟩
  | .hbm, ⟨7, _⟩ => ⟨S4096x64, .i32⟩
  | .hbm, ⟨8, _⟩ => ⟨S4096x64, .i1⟩
  | .hbm, ⟨9, _⟩ => ⟨S4096x64, .i1⟩
  | .hbm, ⟨10, _⟩ => ⟨S4096x1, .i1⟩
  | .hbm, ⟨11, _⟩ => ⟨S4096, .i1⟩
  | .hbm, ⟨12, _⟩ => ⟨S4096x64, .i32⟩
  | .hbm, ⟨13, _⟩ => ⟨S_, .i32⟩
  | .hbm, ⟨14, _⟩ => ⟨S_, .i32⟩
  | .hbm, ⟨15, _⟩ => ⟨S4096x64, .i32⟩
  | .hbm, ⟨16, _⟩ => ⟨S_, .i32⟩
  | .hbm, ⟨17, _⟩ => ⟨S4096x64, .i32⟩
  | .hbm, ⟨18, _⟩ => ⟨S4096x64, .i1⟩
  | .hbm, ⟨19, _⟩ => ⟨S4096x64, .i1⟩
  | .hbm, ⟨20, _⟩ => ⟨S_, .i1⟩
  | .hbm, ⟨21, _⟩ => ⟨S4096, .i1⟩
  | .hbm, ⟨22, _⟩ => ⟨S4096x1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1x256, .f32⟩
  | .hbm, ⟨30, _⟩ => ⟨S4096x64x256, .f32⟩
  | .hbm, ⟨31, _⟩ => ⟨S4096x64x256, .f32⟩
  | .hbm, ⟨32, _⟩ => ⟨S4096x64x256, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S_, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096, .f32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S1x4, .i32⟩
  | .hbm, ⟨50, _⟩ => ⟨S4096x4, .i32⟩
  | .hbm, ⟨51, _⟩ => ⟨S4096x4, .i32⟩
  | .hbm, ⟨52, _⟩ => ⟨S4096x4, .i1⟩
  | .hbm, ⟨53, _⟩ => ⟨S4096x4, .f32⟩
  | .hbm, ⟨54, _⟩ => ⟨S_, .f32⟩
  | .hbm, ⟨55, _⟩ => ⟨S4, .f32⟩
  | .hbm, ⟨56, _⟩ => ⟨S2x2, .f32⟩
  | .hbm, ⟨57, _⟩ => ⟨S5x1, .f32⟩
  | .hbm, ⟨58, _⟩ => ⟨S1x4096, .i1⟩
  | .hbm, ⟨59, _⟩ => ⟨S1x4096, .i1⟩
  | .hbm, ⟨60, _⟩ => ⟨S1x4096, .f32⟩
  | .hbm, ⟨61, _⟩ => ⟨S1x4096, .f32⟩
  | .hbm, ⟨62, _⟩ => ⟨S1x4096, .i1⟩
  | .hbm, ⟨63, _⟩ => ⟨S1x4096, .i1⟩
  | .hbm, ⟨64, _⟩ => ⟨S5x4096, .f32⟩
  | .hbm, ⟨65, _⟩ => ⟨S5x4096, .f32⟩
  | .hbm, ⟨66, _⟩ => ⟨S5x4096, .i1⟩
  | .hbm, ⟨67, _⟩ => ⟨S1x4096, .i1⟩
  | .hbm, ⟨68, _⟩ => ⟨S1x4096, .i1⟩
  | .hbm, ⟨69, _⟩ => ⟨S5x4096, .f32⟩
  | .hbm, ⟨70, _⟩ => ⟨S5x4096, .f32⟩
  | .hbm, ⟨71, _⟩ => ⟨S5x4096, .i1⟩
  | .hbm, ⟨72, _⟩ => ⟨S1x4096, .i1⟩
  | .hbm, ⟨73, _⟩ => ⟨S5x4096, .f32⟩
  | .hbm, ⟨74, _⟩ => ⟨S5x4096, .f32⟩
  | .hbm, ⟨75, _⟩ => ⟨S5x4096, .f32⟩
  | .hbm, ⟨76, _⟩ => ⟨S5x4096, .f32⟩
  | .hbm, ⟨77, _⟩ => ⟨S5x4096, .i1⟩
  | .hbm, ⟨78, _⟩ => ⟨S_, .i1⟩
  | .hbm, ⟨79, _⟩ => ⟨S5x4096, .i1⟩
  | .hbm, ⟨80, _⟩ => ⟨S5x4096, .i1⟩
  | .hbm, ⟨81, _⟩ => ⟨S5x4096, .i1⟩
  | .hbm, ⟨82, _⟩ => ⟨S5x4096, .i1⟩
  | .hbm, ⟨83, _⟩ => ⟨S5x4096, .i1⟩
  | .hbm, ⟨84, _⟩ => ⟨S5x4096, .i1⟩
  | .hbm, ⟨85, _⟩ => ⟨S5x4096, .i1⟩
  | .hbm, ⟨86, _⟩ => ⟨S5x4096, .f32⟩
  | .hbm, ⟨87, _⟩ => ⟨S5x4, .f32⟩
  | .hbm, ⟨88, _⟩ => ⟨S5x2x2, .f32⟩
  | .hbm, ⟨89, _⟩ => ⟨S2x2, .i32⟩
  | .hbm, ⟨90, _⟩ => ⟨S5x2x2, .i32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_v20 : Ref sig .tc := ⟨.hbm, 35, rfl⟩
abbrev main_cst_2 : Ref sig .tc := ⟨.hbm, 36, rfl⟩
abbrev main_call3_v0 : Ref sig .tc := ⟨.hbm, 37, rfl⟩
abbrev main_call3_v1 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_call5_v0 : Ref sig .tc := ⟨.hbm, 79, rfl⟩
abbrev main_call5_v1 : Ref sig .tc := ⟨.hbm, 80, rfl⟩
abbrev main_v52 : Ref sig .tc := ⟨.hbm, 81, rfl⟩
abbrev main_call6_v0 : Ref sig .tc := ⟨.hbm, 82, rfl⟩
abbrev main_v53 : Ref sig .tc := ⟨.hbm, 83, rfl⟩
abbrev main_call7_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  slices_S4096x64x2_S4096x64x1_0_0_0 : S4096x64x2.Slices ![0, 0, 0] S4096x64x1
  shapeCasts_S4096x64x1_S4096x64 : S4096x64x1.ShapeCasts S4096x64
  bcast_S_S4096x64 : S_.BroadcastsInDim S4096x64 (![] : Fin 0 → Fin S4096x64.rank)
  slices_S4096x64_S4096x1_0_0 : S4096x64.Slices ![0, 0] S4096x1
  shapeCasts_S4096x1_S4096 : S4096x1.ShapeCasts S4096
  natLt_1_32 : 1 < 32
  bcast_S_S_ : S_.BroadcastsInDim S_ (![] : Fin 0 → Fin S_.rank)
  reduceWindows_S4096x64_S4096x64_w1s1p0_0_w64s1p63_0 : S4096x64.ReduceWindows (![1, 64] : Fin 2 → Nat) ![1, 1] ![0, 63] ![0, 0] S4096x64
  h_S_ : 0 < S_.numel
  reducesTo_S4096x64_S4096_d1 : S4096x64.ReducesTo [1] S4096
  slices_S4096x64x256_S4096x1x256_0_0_0 : S4096x64x256.Slices ![0, 0, 0] S4096x1x256
  shapeCasts_S4096x1x256_S4096x256 : S4096x1x256.ShapeCasts S4096x256
  reducesTo_S4096x256_S4096_d1 : S4096x256.ReducesTo [1] S4096
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  reducesTo_S4096x64x256_S4096x64_d2 : S4096x64x256.ReducesTo [2] S4096x64
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  reducesTo_S4096x4_S4_d0 : S4096x4.ReducesTo [0] S4
  shapeCasts_S4_S2x2 : S4.ShapeCasts S2x2
  bcast_S5_S5x1_0 : S5.BroadcastsInDim S5x1 (![0] : Fin 1 → Fin S5x1.rank)
  bcast_S4096_S1x4096_1 : S4096.BroadcastsInDim S1x4096 (![1] : Fin 1 → Fin S1x4096.rank)
  bcast_S5x1_S5x4096_0_1 : S5x1.BroadcastsInDim S5x4096 (![0, 1] : Fin 2 → Fin S5x4096.rank)
  bcast_S1x4096_S5x4096_0_1 : S1x4096.BroadcastsInDim S5x4096 (![0, 1] : Fin 2 → Fin S5x4096.rank)
  bcast_S_S5x4096 : S_.BroadcastsInDim S5x4096 (![] : Fin 0 → Fin S5x4096.rank)
  shapeCasts_S5x4_S5x2x2 : S5x4.ShapeCasts S5x2x2
  dot_S5x4096_S4096x4_S5x4_1_0_0_1_n_n_wf : DotDims.WF S5x4096 S4096x4 S5x4 [1] [0] [0] [1] [] []

variable [Facts₀]

def dot_S5x4096_S4096x4_S5x4_1_0_0_1_n_n : DotDims S5x4096 S4096x4 S5x4 where
  lhsContracting := [1]
  rhsContracting := [0]
  lhsNonContracting := [0]
  rhsNonContracting := [1]
  lhsBatch := []
  rhsBatch := []
  wf := dot_S5x4096_S4096x4_S5x4_1_0_0_1_n_n_wf

class Facts : Prop extends Facts₀ where

variable [Facts]
-- ==== Proof.KBody.lean ====
/-
  The kernel's arithmetic read at an index, on the extended reals.  One chunk of the body takes the row block `v0` of
  predicted vectors (128 × 256) and a slab `v1` of 16 entities per row (128 × 16 × 256), spreads each row's predicted
  vector over the 16 entities, subtracts, squares, sums over the 256 features and takes the square root: entry (r, e)
  of the chunk is √(∑ₖ (v1[r,e,k] − v0[r,k])²).  The four chunks of the body are this one function of four slabs.
-/
import proofs.«120936_j25366076850443_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KBody

open Cert.KernelIdeal Cert.KernelIdeal.Gen

/-- A row's predicted vector, re-laid as 128 × 1 × 256 and spread over 16 entities, read at (r, e, k): entry (r, k). -/
theorem spread_apply (v0 : FVec Ideal S128x256 .f32) (h1 : S128x256.ShapeCasts S128x1x256)
    (h2 : S128x1x256.Broadcasts S128x16x256) (r : Fin 128) (e : Fin 16) (k : Fin 256) :
    broadcastTo S128x16x256 (shapeCast S128x1x256 v0 h1) h2 (ix3 r e k) = v0 (ix2 r k) := by
  refine (broadcastTo_apply _ h2 (ix3 r e k) (ix3 r (0 : Fin 1) k) fun ax => ?_).trans ?_
  · match ax with
    | ⟨0, _⟩ => rfl
    | ⟨1, _⟩ => rfl
    | ⟨2, _⟩ => rfl
  · exact shapeCast_apply v0 h1 _ _ (by
      rw [Shape.rowMajor_val_two, Shape.rowMajor_val_three]
      show r.val * 256 + k.val = (r.val * 1 + 0) * 256 + k.val
      omega)

/-- Inserting the feature coordinate `k` on axis 2 of (r, e) gives (r, e, k). -/
theorem lift_eq (h : S128x16x256.Reduces [2] S128x16) (r : Fin 128) (e : Fin 16) (k : Fin 256) :
    h.lift (ix2 r e) k = ix3 r e k := by
  funext a
  match a with
  | ⟨0, _⟩ => exact Fin.ext rfl
  | ⟨1, _⟩ => exact Fin.ext rfl
  | ⟨2, _⟩ => exact Fin.ext rfl

/-- One chunk's distances: entry (r, e) is √(∑ₖ (v1[r,e,k] − v0[r,k])²). -/
theorem chunk_apply (v0 : FVec Ideal S128x256 .f32) (v1 : FVec Ideal S128x16x256 .f32) (r : Fin 128) (e : Fin 16) :
    k0_pay4 (F := Ideal) v0 v1 (ix2 r e)
      = Ideal.sqrt (∑ k : Fin 256, (v1 (ix3 r e k) - v0 (ix2 r k)) * (v1 (ix3 r e k) - v0 (ix2 r k))) := by
  unfold k0_pay4
  rw [shapeCast_self]
  refine congrArg Ideal.sqrt ?_
  refine (Ideal.multiReduction_add_single _ _ _ _ _ (ix2 r e)).trans ?_
  show Finset.sum (Finset.univ : Finset (Fin 256)) _ = _
  refine Finset.sum_congr rfl fun k _ => ?_
  rw [lift_eq]
  show (v1 (ix3 r e k) - broadcastTo S128x16x256 _ _ (ix3 r e k)) * (v1 (ix3 r e k) - broadcastTo S128x16x256 _ _ (ix3 r e k)) = _
  rw [spread_apply]

end Cert.KernelIdeal.KBody

end
-- ==== Proof.KMin.lean ====
/-
  The kernel's masked minimum read at an index, on the extended reals.  The body holds the 128 × 64 distances `d` and
  the 128 × 64 mask `nmf` (a float that is 1 where the entity is a negative and 0 elsewhere), replaces the distances
  of the entities whose mask is not above one half by +∞, and takes the least entry of each row: row r of the result
  is the fold of `min` from +∞ over the 64 entities.  A 0/1 flag is above one half exactly when it is 1.
-/
import proofs.«120936_j25366076850443_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KMin

open Cert.KernelIdeal Cert.KernelIdeal.Gen

/-- The word 0x7F800000 denotes +∞. -/
theorem ofBits_inf : Ideal.ofBits .f32 0x7F800000#32 = (⊤ : EReal) := by simp [Ideal.ofBits, Ideal.ieee]

/-- The word 0x3F000000 denotes one half. -/
theorem ofBits_half : Ideal.ofBits .f32 0x3F000000#32 = (((1 : ℝ) / 2 : ℝ) : EReal) := by
  simp [Ideal.ofBits, Ideal.ieee]
  rw [← EReal.coe_mul]
  exact congrArg _ (by norm_num)

/-- A 0/1 flag, read as a float, is above one half exactly when it is 1. -/
theorem flag_gt_half (n : BitVec 1) :
    FloatOps.cmpf (F := Ideal) (φ := .f32) .ogt (FloatOps.uitofp .f32 n) (Scalar.ofBits .f32 0x3F000000#32) = n := by
  show Ideal.cmp .ogt ((n.toNat : ℝ) : EReal) (Ideal.ofBits .f32 0x3F000000#32) = n
  rw [ofBits_half]
  rcases BitVec.eq_zero_or_eq_one n with h | h
  · subst h
    have h0 : ¬ ((((1 : ℝ) / 2 : ℝ) : EReal) < (((0#1 : BitVec 1).toNat : ℝ) : EReal)) := by
      rw [EReal.coe_lt_coe_iff]
      norm_num
    simp only [Ideal.cmp, h0, decide_false]
    rfl
  · subst h
    have h1 : (((1 : ℝ) / 2 : ℝ) : EReal) < (((1#1 : BitVec 1).toNat : ℝ) : EReal) := by
      rw [EReal.coe_lt_coe_iff]
      norm_num
    simp only [Ideal.cmp, h1, decide_true]
    rfl

/-- A minimum-reduction over one axis, read on the extended reals: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- Inserting the entity coordinate `e` on axis 1 of row r gives (r, e). -/
theorem lift1_eq (h : S128x64.Reduces [1] S128) (r : Fin 128) (e : Fin 64) : h.lift (ix1 r) e = ix2 r e := by
  funext a
  match a with
  | ⟨0, _⟩ => exact Fin.ext rfl
  | ⟨1, _⟩ => exact Fin.ext rfl

/-- Row r of the masked minimum: the fold of `min` from +∞ over the 64 entities, an entity whose flag is not above one
    half counting as +∞. -/
theorem minrow_apply (d nmf : FVec Ideal S128x64 .f32) (r : Fin 128) (u : Fin 1) :
    k0_pay3 (F := Ideal) d nmf (ix2 r u)
      = (Finset.univ : Finset (Fin 64)).fold min (⊤ : EReal)
          (fun e => Scalar.select (FloatOps.cmpf (F := Ideal) (φ := .f32) .ogt (nmf (ix2 r e)) (Scalar.ofBits .f32 0x3F000000#32))
            (d (ix2 r e)) ⊤) := by
  unfold k0_pay3
  rw [shapeCast_self]
  refine (shapeCast_apply _ _ (ix2 r u) (ix1 r) (by
    rw [Shape.rowMajor_val_one, Shape.rowMajor_val_two]
    show r.val = r.val * 1 + u.val
    omega)).trans ?_
  refine (multiReduction_minimumf_single _ _ _ _ _ (ix1 r)).trans ?_
  rw [ofBits_inf]
  show Finset.fold min ⊤ _ (Finset.univ : Finset (Fin 64)) = _
  refine congrArg (fun f : Fin 64 → EReal => Finset.fold min (⊤ : EReal) f (Finset.univ : Finset (Fin 64))) (funext fun e : Fin 64 => ?_)
  refine (congrArg (select _ d _) (lift1_eq _ r e)).trans ?_
  show Scalar.select _ (d (ix2 r e)) (Ideal.ofBits .f32 0x7F800000#32) = _
  rw [ofBits_inf]
  rfl

end Cert.KernelIdeal.KMin

end
-- ==== Proof.KPiece.lean ====
/-
  What one grid point leaves in its two output blocks, as functions of the three input blocks it loads: the block `x0`
  of predicted vectors (128 × 256), the block `x1` of entity vectors (128 × 64 × 256) and the block `x2` of the mask
  (128 × 64).  The body fills a 128 × 64 scratch with the distances in four column chunks of 16 entities; read back
  whole, the scratch is ONE function of (x0, x1): entry (r, e) is √(∑ₖ (x1[r,e,k] − x0[r,k])²), because each chunk's
  stored values are that function on the chunk's columns and the four chunks tile the scratch.  Output block 3 is
  column 0 of the scratch; output block 4 is the row minimum of the scratch over the entities whose mask exceeds 1/2.
-/
import proofs.«120936_j25366076850443_2_alg».proof.Proof.Gen.KernelIdeal.Frame
import proofs.«120936_j25366076850443_2_alg».proof.Proof.KBody
import proofs.«120936_j25366076850443_2_alg».proof.Proof.KMin
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KPiece

open Cert.KernelIdeal Cert.KernelIdeal.Gen

theorem hz2 : (![0, 0] : Fin 2 → Nat) = fun _ => 0 := funext fun a => by fin_cases a <;> rfl

/-- The scratch after the four chunks: entry (r, e) is the distance of entity e of row r. -/
def scratch (x0 : FVec Ideal S128x256 .f32) (x1 : FVec Ideal S128x64x256 .f32) : S128x64.Idx → EReal := fun y =>
  Ideal.sqrt (∑ k : Fin 256, (x1 (ix3 (y 0) (y 1) k) - x0 (ix2 (y 0) k)) * (x1 (ix3 (y 0) (y 1) k) - x0 (ix2 (y 0) k)))

/-- The chunk stored at columns [c, c + 16) holds the scratch function on those columns: its slab of entities is read
    at column offset c, and a chunk entry (r, e) is the distance of entity c + e of row r. -/
theorem chunk_piece (x0 : FVec Ideal S128x256 .f32) (x1 : FVec Ideal S128x64x256 .f32) (c : Nat)
    (inb : ∀ a, (![0, c] : Fin 2 → Nat) a + S128x16.size a ≤ S128x64.size a)
    (inb3 : ∀ a, (![0, c, 0] : Fin 3 → Nat) a + S128x16x256.size a ≤ S128x64x256.size a) (x : S128x16.Idx) :
    k0_pay4 (F := Ideal) x0 (View.ld x1 (Rect.unit (s := S128x64x256) ![0, c, 0] S128x16x256.size inb3)) x
      = scratch x0 x1 ((Rect.unit (s := S128x64) ![0, c] S128x16.size inb).emb x) := by
  obtain ⟨r, e, rfl⟩ : ∃ (r : Fin 128) (e : Fin 16), x = ix2 r e := ⟨x 0, x 1, eq_ix2 x⟩
  rw [KBody.chunk_apply]
  unfold scratch
  refine congrArg Ideal.sqrt (Finset.sum_congr rfl fun k _ => ?_)
  have h1 : (Rect.unit (s := S128x64x256) ![0, c, 0] S128x16x256.size inb3).idx (ix3 r e k)
      = ix3 (((Rect.unit (s := S128x64) ![0, c] S128x16.size inb).emb (ix2 r e)) 0) (((Rect.unit (s := S128x64) ![0, c] S128x16.size inb).emb (ix2 r e)) 1) k := by
    funext a
    apply Fin.ext
    match a with
    | ⟨0, _⟩ => rfl
    | ⟨1, _⟩ => rfl
    | ⟨2, _⟩ => show 0 + 1 * k.val = k.val; omega
  have h0 : ix2 r k = ix2 (((Rect.unit (s := S128x64) ![0, c] S128x16.size inb).emb (ix2 r e)) 0) k := by
    funext a
    apply Fin.ext
    match a with
    | ⟨0, _⟩ => show r.val = 0 + 1 * r.val; omega
    | ⟨1, _⟩ => rfl
  show (x1 ((Rect.unit (s := S128x64x256) ![0, c, 0] S128x16x256.size inb3).idx (ix3 r e k)) - x0 (ix2 r k))
      * (x1 ((Rect.unit (s := S128x64x256) ![0, c, 0] S128x16x256.size inb3).idx (ix3 r e k)) - x0 (ix2 r k)) = _
  rw [h1, h0]
  rfl

/-- Column 0 of the scratch. -/
def out3 (x0 : FVec Ideal S128x256 .f32) (x1 : FVec Ideal S128x64x256 .f32) : S128x1.Idx → EReal :=
  fun y => scratch x0 x1 (ix2 (y 0) (0 : Fin 64))

/-- The row minimum of the scratch over the entities whose mask is above one half. -/
def out4 (x0 : FVec Ideal S128x256 .f32) (x1 : FVec Ideal S128x64x256 .f32) (x2 : FVec Ideal S128x64 .f32) : S128x1.Idx → EReal :=
  fun y => (Finset.univ : Finset (Fin 64)).fold min (⊤ : EReal)
    (fun e => Scalar.select (FloatOps.cmpf (F := Ideal) (φ := .f32) .ogt (x2 (ix2 (y 0) e)) (Scalar.ofBits .f32 0x3F000000#32))
      (scratch x0 x1 (ix2 (y 0) e)) ⊤)

/-- The scratch read back whole after the four chunk stores (last first) is the scratch function. -/
theorem scratch_read (v : View sig .tc .vmem S128x64 .f32) (x0 : FVec Ideal S128x256 .f32) (x1 : FVec Ideal S128x64x256 .f32)
    (i48 : ∀ a, (![0, 48] : Fin 2 → Nat) a + S128x16.size a ≤ S128x64.size a) (j48 : ∀ a, (![0, 48, 0] : Fin 3 → Nat) a + S128x16x256.size a ≤ S128x64x256.size a)
    (i32 : ∀ a, (![0, 32] : Fin 2 → Nat) a + S128x16.size a ≤ S128x64.size a) (j32 : ∀ a, (![0, 32, 0] : Fin 3 → Nat) a + S128x16x256.size a ≤ S128x64x256.size a)
    (i16 : ∀ a, (![0, 16] : Fin 2 → Nat) a + S128x16.size a ≤ S128x64.size a) (j16 : ∀ a, (![0, 16, 0] : Fin 3 → Nat) a + S128x16x256.size a ≤ S128x64x256.size a)
    (i0 : ∀ a, (![0, 0] : Fin 2 → Nat) a + S128x16.size a ≤ S128x64.size a) (j0 : ∀ a, (![0, 0, 0] : Fin 3 → Nat) a + S128x16x256.size a ≤ S128x64x256.size a)
    (iw : ∀ a, (![0, 0] : Fin 2 → Nat) a + S128x64.size a ≤ S128x64.size a) :
    v.readCov (Val := Elt Ideal)
        [⟨Rect.unit (s := S128x64) ![0, 48] S128x16.size i48, k0_pay1 (F := Ideal) (View.ld x1 (Rect.unit (s := S128x64x256) ![0, 48, 0] S128x16x256.size j48)) (k0_pay7 x0)⟩,
         ⟨Rect.unit (s := S128x64) ![0, 32] S128x16.size i32, k0_pay6 (F := Ideal) x0 (View.ld x1 (Rect.unit (s := S128x64x256) ![0, 32, 0] S128x16x256.size j32))⟩,
         ⟨Rect.unit (s := S128x64) ![0, 16] S128x16.size i16, k0_pay5 (F := Ideal) x0 (View.ld x1 (Rect.unit (s := S128x64x256) ![0, 16, 0] S128x16x256.size j16))⟩,
         ⟨Rect.unit (s := S128x64) ![0, 0] S128x16.size i0, k0_pay4 (F := Ideal) x0 (View.ld x1 (Rect.unit (s := S128x64x256) ![0, 0, 0] S128x16x256.size j0))⟩]
        (Rect.unit (s := S128x64) ![0, 0] S128x64.size iw).toLoadRect
      = scratch x0 x1 := by
  rw [View.readCov_eq_canon']
  funext y
  refine (View.canon_apply_of_pieces (S := S128x64) (Val := Elt Ideal) (e := .f32) (scratch x0 x1) _ ?_ _ (View.cover_of_tiledL (s := S128x64) _ S128x16.size (by sl_kernel_rfl) _)).trans ?_
  · intro p hp x
    simp only [List.mem_cons, List.mem_nil_iff, or_false] at hp
    rcases hp with rfl | rfl | rfl | rfl
    · exact chunk_piece x0 x1 48 i48 j48 x
    · exact chunk_piece x0 x1 32 i32 j32 x
    · exact chunk_piece x0 x1 16 i16 j16 x
    · exact chunk_piece x0 x1 0 i0 j0 x
  · refine congrArg (scratch x0 x1) ?_
    funext a
    apply Fin.ext
    match a with
    | ⟨0, _⟩ => show 0 + 1 * (y 0).val = (y 0).val; omega
    | ⟨1, _⟩ => show 0 + 1 * (y 1).val = (y 1).val; omega

/-- Output block 3 after the body: column 0 of the scratch. -/
theorem out3_eq (c : Dev nD) (i : grid0.Coords) (arg1 : Memref sig .tc .vmem S128x256 .f32) (harg1 : arg1.IsWhole) (arg2 : Memref sig .tc .vmem S128x64x256 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x64 .f32) (harg6 : arg6.IsWhole)
    (x0 : Vec Ideal S128x256 .f32) (x1 : Vec Ideal S128x64x256 .f32) (x2 : Vec Ideal S128x64 .f32) :
    out0_A_3 (F := Ideal) c i arg1 harg1 arg2 harg2 arg3 harg3 arg4 harg4 arg5 harg5 arg6 harg6 x0 x1 x2 = out3 x0 x1 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero hz2]
  simp only [View.readAt_eq_ld, harg1.read_unread, harg2.read_unread, View.ld_unit_zero (S := S128x256) hz2]
  rw [scratch_read]
  funext y
  obtain ⟨r, u, rfl⟩ : ∃ (r : Fin 128) (u : Fin 1), y = ix2 r u := ⟨y 0, y 1, eq_ix2 y⟩
  unfold k0_pay2 out3
  refine (extractStridedSlice_apply _ _ _ (ix2 r u) (ix2 r (0 : Fin 64)) fun a => ?_).trans rfl
  match a with
  | ⟨0, _⟩ => show r.val = 0 + r.val; omega
  | ⟨1, _⟩ => show 0 = 0 + u.val; omega

/-- Output block 4 after the body: the masked row minimum of the scratch. -/
theorem out4_eq (c : Dev nD) (i : grid0.Coords) (arg1 : Memref sig .tc .vmem S128x256 .f32) (harg1 : arg1.IsWhole) (arg2 : Memref sig .tc .vmem S128x64x256 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S128x64 .f32) (harg6 : arg6.IsWhole)
    (x0 : Vec Ideal S128x256 .f32) (x1 : Vec Ideal S128x64x256 .f32) (x2 : Vec Ideal S128x64 .f32) :
    out0_A_4 (F := Ideal) c i arg1 harg1 arg2 harg2 arg3 harg3 arg4 harg4 arg5 harg5 arg6 harg6 x0 x1 x2 = out4 x0 x1 x2 := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  sl_unfold_words
  rw [View.canon_unit_zero hz2]
  simp only [View.readAt_eq_ld, harg1.read_unread, harg2.read_unread, harg3.read_unread, View.ld_unit_zero (S := S128x256) hz2,
    View.ld_unit_zero (S := S128x64) hz2]
  rw [scratch_read]
  funext y
  obtain ⟨r, u, rfl⟩ : ∃ (r : Fin 128) (u : Fin 1), y = ix2 r u := ⟨y 0, y 1, eq_ix2 y⟩
  exact KMin.minrow_apply _ _ r u

end Cert.KernelIdeal.KPiece

end
-- ==== Proof.Spec.lean ====
/-
  The vocabulary both programs are read in.  Inputs: predicted vectors `p` (4096 × 256), entity vectors `ev`
  (4096 × 64 × 256) and an integer mask (4096 × 64 × 2) whose column 0 says which entities of a row are selected.

  * `selected`: column 0 of the mask is non-zero.  `isKnown`: entity 0 of the row is selected.  `negMask`: the entity
    is selected and is not the first selected one of its row (its running count of selected entities exceeds 1).
    `hasNeg`: some entity of the row is in `negMask`.
  * `dist p ev b e` = √(∑ₖ (ev[b,e,k] − p[b,k])²), the Euclidean distance between entity `e` of row `b` and the
    row's predicted vector.  `posDist` is the distance to entity 0; `minNeg` the least distance over the entities of
    `negMask` (+∞ when there is none), written as the fold of `min` over the 64 entities from +∞.
  * `counts` / `incorrect`: the bucket accounting over rows — the one-hot of the category 2·known + hasNeg summed
    over rows, and the per-threshold error flags contracted with that one-hot.  Both programs apply these same
    operations to (isKnown, hasNeg, posDist, minNeg); they are kept as ONE function of those four arrays and never
    opened.
-/
import proofs.«120936_j25366076850443_2_alg».proof.Proof.Gen.KernelIdeal
import Idealize.ShloMosaic.PureOps.Ideal
import Idealize.ShloMosaic.Lib.ValueIdx

noncomputable section

namespace Cert.Acc

open Idealize.ShloMosaic Idealize.ShloMosaic.ValueIdx Cert.KernelIdeal Cert.KernelIdeal.Gen

/-! ## The masks -/

/-- Column 0 of the mask, as a bit per (row, entity). -/
def selected (a2 : IVec S4096x64x2 32) : IVec S4096x64 1 :=
  cmpi .ne (shapeCast S4096x64 (extractStridedSlice S4096x64x1 ![0, 0, 0] a2 slices_S4096x64x2_S4096x64x1_0_0_0) shapeCasts_S4096x64x1_S4096x64)
    (broadcastInDim S4096x64 ![] bcast_S_S4096x64 (constantI S_ 32 0#32))

/-- Entity 0 of the row is selected. -/
def isKnown (a2 : IVec S4096x64x2 32) : IVec S4096 1 :=
  shapeCast S4096 (extractStridedSlice S4096x1 ![0, 0] (selected a2) slices_S4096x64_S4096x1_0_0) shapeCasts_S4096x1_S4096

/-- Selected, and not the first selected entity of its row: the running count of selected entities is above 1. -/
def negMask (a2 : IVec S4096x64x2 32) : IVec S4096x64 1 :=
  andi (selected a2)
    (cmpi .sgt
      (Host.reduceWindow IntOp.addi ![1, 64] ![1, 1] ![0, 63] ![0, 0] (extui 32 (selected a2) natLt_1_32)
        (broadcastInDim S_ ![] bcast_S_S_ (constantI S_ 32 0#32)) reduceWindows_S4096x64_S4096x64_w1s1p0_0_w64s1p63_0 h_S_)
      (broadcastInDim S4096x64 ![] bcast_S_S4096x64 (constantI S_ 32 1#32)))

/-- Some entity of the row is a negative. -/
def hasNeg (a2 : IVec S4096x64x2 32) : IVec S4096 1 :=
  Host.reduce IntOp.ori (negMask a2) (constantI S_ 1 0#1) reducesTo_S4096x64_S4096_d1 h_S_

/-! ## The distances -/

/-- ∑ₖ (ev[b,e,k] − p[b,k])². -/
def sqDist (p : FVec Ideal S4096x256 .f32) (ev : FVec Ideal S4096x64x256 .f32) (b : Fin 4096) (e : Fin 64) : EReal :=
  ∑ k : Fin 256, (ev (ix3 b e k) - p (ix2 b k)) * (ev (ix3 b e k) - p (ix2 b k))

/-- The Euclidean distance between entity `e` of row `b` and the row's predicted vector. -/
def dist (p : FVec Ideal S4096x256 .f32) (ev : FVec Ideal S4096x64x256 .f32) (b : Fin 4096) (e : Fin 64) : EReal :=
  Ideal.sqrt (sqDist p ev b e)

/-- The distance to entity 0, per row. -/
def posDist (p : FVec Ideal S4096x256 .f32) (ev : FVec Ideal S4096x64x256 .f32) : FVec Ideal S4096 .f32 :=
  fun i => dist p ev (i 0) 0

/-- The least distance over the row's negatives: the fold of `min` from +∞ over the 64 entities, an entity outside
    `nm` counting as +∞. -/
def minNeg (nm : IVec S4096x64 1) (p : FVec Ideal S4096x256 .f32) (ev : FVec Ideal S4096x64x256 .f32) : FVec Ideal S4096 .f32 :=
  fun i => (Finset.univ : Finset (Fin 64)).fold min (⊤ : EReal) (fun e => Scalar.select (nm (ix2 (i 0) e)) (dist p ev (i 0) e) ⊤)

/-! ## The bucket accounting (the same operations in both programs) -/

/-- The five thresholds 0.5, 1, 1.5, 2, 3 (as their binary32 words). -/
def thresholds : FVec Ideal S5 .f32 := fun i => FloatOps.ofBits .f32 (lit0 (S5.rowMajor i))

/-- The row's category 2·known + hasNeg, one-hot over the four categories. -/
def onehot (known hasneg : IVec S4096 1) : FVec Ideal S4096x4 .f32 :=
  uitofp .f32
    (cmpi .eq
      (broadcastInDim S4096x4 ![0, 1] bcast_S4096x1_S4096x4_0_1
        (broadcastInDim S4096x1 ![0] bcast_S4096_S4096x1_0
          (addi (muli (extui 32 known natLt_1_32) (broadcastInDim S4096 ![] bcast_S_S4096 (constantI S_ 32 2#32)))
            (extui 32 hasneg natLt_1_32))))
      (broadcastInDim S4096x4 ![0, 1] bcast_S1x4_S4096x4_0_1 (iotaInDim S1x4 32 1)))

/-- How many rows fall in each category. -/
def counts (known hasneg : IVec S4096 1) : IVec S2x2 32 :=
  fptosi 32 (shapeCast S2x2 (Host.reduceAdd (onehot known hasneg) (constant S_ .f32 0x00000000#32) reducesTo_S4096x4_S4_d0 h_S_) shapeCasts_S4_S2x2)

/-- Per threshold and category, how many rows are flagged incorrect. -/
def incorrect (known hasneg : IVec S4096 1) (pos mn : FVec Ideal S4096 .f32) : IVec S5x2x2 32 :=
  let K : IVec S1x4096 1 := broadcastInDim S1x4096 ![1] bcast_S4096_S1x4096_1 known
  let H : IVec S1x4096 1 := broadcastInDim S1x4096 ![1] bcast_S4096_S1x4096_1 hasneg
  let T : FVec Ideal S5x4096 .f32 := broadcastInDim S5x4096 ![0, 1] bcast_S5x1_S5x4096_0_1 (broadcastInDim S5x1 ![0] bcast_S5_S5x1_0 thresholds)
  let P : FVec Ideal S5x4096 .f32 := broadcastInDim S5x4096 ![0, 1] bcast_S1x4096_S5x4096_0_1 (broadcastInDim S1x4096 ![1] bcast_S4096_S1x4096_1 pos)
  let M : FVec Ideal S5x4096 .f32 := broadcastInDim S5x4096 ![0, 1] bcast_S1x4096_S5x4096_0_1 (broadcastInDim S1x4096 ![1] bcast_S4096_S1x4096_1 mn)
  let both : IVec S5x4096 1 :=
    select (broadcastInDim S5x4096 ![0, 1] bcast_S1x4096_S5x4096_0_1 (andi K H)) (cmpf .olt (minimumf M T) P)
      (broadcastInDim S5x4096 ![] bcast_S_S5x4096 (constantI S_ 1 0#1))
  let onlyNeg : IVec S5x4096 1 :=
    select (broadcastInDim S5x4096 ![0, 1] bcast_S1x4096_S5x4096_0_1 (andi (noti K) H)) (cmpf .olt M T) both
  let flags : IVec S5x4096 1 :=
    select (broadcastInDim S5x4096 ![0, 1] bcast_S1x4096_S5x4096_0_1 (andi K (noti H))) (cmpf .olt T P) onlyNeg
  fptosi 32 (shapeCast S5x2x2
    (Host.dotGeneral dot_S5x4096_S4096x4_S5x4_1_0_0_1_n_n none (uitofp .f32 flags : FVec Ideal S5x4096 .f32) (onehot known hasneg))
    shapeCasts_S5x4_S5x2x2)

/-! ## The two results, as functions of the three inputs -/

def resultCounts (a2 : IVec S4096x64x2 32) : IVec S2x2 32 := counts (isKnown a2) (hasNeg a2)

def resultIncorrect (p : FVec Ideal S4096x256 .f32) (ev : FVec Ideal S4096x64x256 .f32) (a2 : IVec S4096x64x2 32) : IVec S5x2x2 32 :=
  incorrect (isKnown a2) (hasNeg a2) (posDist p ev) (minNeg (negMask a2) p ev)

end Cert.Acc

end
-- ==== Proof.KArray.lean ====
/-
  From blocks to arrays.  Grid point t (of 32) reads rows [128·t, 128·t + 128) of the three input arrays and writes rows
  [128·t, 128·t + 128) of the two 4096 × 1 output arrays; the 32 blocks tile each output.  So after the run output 3
  holds, at row b, the distance of entity 0 of row b, and output 4 holds the minimum over the entities of row b whose
  mask entry is above one half — each one whole-array function of the arrays the region finds.
-/
import proofs.«120936_j25366076850443_2_alg».proof.Proof.KPiece
import proofs.«120936_j25366076850443_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KArray

open Cert.KernelIdeal Cert.KernelIdeal.Gen

variable (m : (ℓ : Loc nD τ sig) → Buf (Elt Ideal) ℓ) (ρ : Dev nD → PrngReg)

/-- The index maps over the grid: every window's block index is (t, 0, …). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r of block t is row 128·t + r of the array. -/
def row (t : Fin cfg0.N) (r : Fin 128) : Fin 4096 :=
  ⟨t.val * 128 + r.val, by have := t.isLt; have hN : cfg0.N = 32 := N_0; have := r.isLt; omega⟩

/-- The block of predicted vectors at point t, read at (r, k). -/
theorem blk0_apply (c : Dev nD) (t : Fin cfg0.N) (r : Fin 128) (k : Fin 256) :
    iblk m c 0 t (ix2 r k) = V m c main_arg0 (ix2 (row t r) k) := by
  obtain ⟨e00, e01, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 128 + 1 * r.val = t.val * 128 + r.val; rw [e00]; omega
  | ⟨1, _⟩ => show win0_0.index t (1 : Fin 2) * 256 + 1 * k.val = k.val; rw [e01]; omega

/-- The block of entity vectors at point t, read at (r, e, k). -/
theorem blk1_apply (c : Dev nD) (t : Fin cfg0.N) (r : Fin 128) (e : Fin 64) (k : Fin 256) :
    iblk m c 1 t (ix3 r e k) = V m c main_arg1 (ix3 (row t r) e k) := by
  obtain ⟨-, -, e10, e11, e12, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 3) * 128 + 1 * r.val = t.val * 128 + r.val; rw [e10]; omega
  | ⟨1, _⟩ => show win0_1.index t (1 : Fin 3) * 64 + 1 * e.val = e.val; rw [e11]; omega
  | ⟨2, _⟩ => show win0_1.index t (2 : Fin 3) * 256 + 1 * k.val = k.val; rw [e12]; omega

/-- The block of the mask at point t, read at (r, e). -/
theorem blk2_apply (c : Dev nD) (t : Fin cfg0.N) (r : Fin 128) (e : Fin 64) :
    iblk m c 2 t (ix2 r e) = V m c main_v13 (ix2 (row t r) e) := by
  obtain ⟨-, -, -, -, -, e20, e21, -⟩ := idx_facts t
  unfold iblk
  rw [View.read_apply]
  show V m c main_v13 _ = V m c main_v13 _
  refine congrArg (V m c main_v13) ?_
  funext a
  apply Fin.ext
  match a with
  | ⟨0, _⟩ => show win0_2.index t (0 : Fin 2) * 128 + 1 * r.val = t.val * 128 + r.val; rw [e20]; omega
  | ⟨1, _⟩ => show win0_2.index t (1 : Fin 2) * 64 + 1 * e.val = e.val; rw [e21]; omega

/-! ## Output 3: the distance to entity 0 -/

/-- What output 3 ends holding, as a 4096 × 1 column. -/
def col3 (P : FVec Ideal S4096x256 .f32) (E : FVec Ideal S4096x64x256 .f32) : S4096x1.Idx → EReal :=
  fun i => Cert.Acc.dist P E (i 0) 0

/-- What output 4 ends holding, as a 4096 × 1 column: N is the mask as a float. -/
def col4 (N : FVec Ideal S4096x64 .f32) (P : FVec Ideal S4096x256 .f32) (E : FVec Ideal S4096x64x256 .f32) : S4096x1.Idx → EReal :=
  fun i => (Finset.univ : Finset (Fin 64)).fold min (⊤ : EReal)
    (fun e => Scalar.select (FloatOps.cmpf (F := Ideal) (φ := .f32) .ogt (N (ix2 (i 0) e)) (Scalar.ofBits .f32 0x3F000000#32))
      (Cert.Acc.dist P E (i 0) e) ⊤)

/-- Where element (r, u) of output block t sits in the 4096 × 1 array (both outputs have the same index map). -/
theorem emb3 (t : Fin cfg0.N) (r : Fin 128) (u : Fin 1) : ((cfg0.win 3).blk t).view.emb (ix2 r u) = ix2 (row t r) u := by
  obtain ⟨-, -, -, -, -, -, -, e30, e31, -⟩ := idx_facts t
  funext a
  apply Fin.ext
  match a with
  | ⟨0, _⟩ => show win0_3.index t (0 : Fin 2) * 128 + 1 * r.val = t.val * 128 + r.val; rw [e30]; omega
  | ⟨1, _⟩ => show win0_3.index t (1 : Fin 2) * 1 + 1 * u.val = u.val; rw [e31]; omega

theorem emb4 (t : Fin cfg0.N) (r : Fin 128) (u : Fin 1) : ((cfg0.win 4).blk t).view.emb (ix2 r u) = ix2 (row t r) u := by
  obtain ⟨-, -, -, -, -, -, -, -, -, e40, e41⟩ := idx_facts t
  funext a
  apply Fin.ext
  match a with
  | ⟨0, _⟩ => show win0_4.index t (0 : Fin 2) * 128 + 1 * r.val = t.val * 128 + r.val; rw [e40]; omega
  | ⟨1, _⟩ => show win0_4.index t (1 : Fin 2) * 1 + 1 * u.val = u.val; rw [e41]; omega

/-- If the blocks x0, x1 are rows ρ r of the arrays P, E, the scratch at (r, e) is the distance of entity e of row ρ r. -/
theorem scratch_of (x0 : FVec Ideal S128x256 .f32) (x1 : FVec Ideal S128x64x256 .f32)
    (P : FVec Ideal S4096x256 .f32) (E : FVec Ideal S4096x64x256 .f32) (ρ : Fin 128 → Fin 4096)
    (h0 : ∀ r k, x0 (ix2 r k) = P (ix2 (ρ r) k)) (h1 : ∀ r e k, x1 (ix3 r e k) = E (ix3 (ρ r) e k)) (r : Fin 128) (e : Fin 64) :
    KPiece.scratch x0 x1 (ix2 r e) = Cert.Acc.dist P E (ρ r) e := by
  unfold KPiece.scratch Cert.Acc.dist Cert.Acc.sqDist
  refine congrArg Ideal.sqrt (Finset.sum_congr rfl fun k _ => ?_)
  show (x1 (ix3 r e k) - x0 (ix2 r k)) * (x1 (ix3 r e k) - x0 (ix2 r k)) = _
  rw [h1, h0]

/-- Output block 3 at (r, u) is the column at row ρ r. -/
theorem out3_of (x0 : FVec Ideal S128x256 .f32) (x1 : FVec Ideal S128x64x256 .f32)
    (P : FVec Ideal S4096x256 .f32) (E : FVec Ideal S4096x64x256 .f32) (ρ : Fin 128 → Fin 4096)
    (h0 : ∀ r k, x0 (ix2 r k) = P (ix2 (ρ r) k)) (h1 : ∀ r e k, x1 (ix3 r e k) = E (ix3 (ρ r) e k)) (r : Fin 128) (u : Fin 1) :
    KPiece.out3 x0 x1 (ix2 r u) = col3 P E (ix2 (ρ r) u) :=
  scratch_of x0 x1 P E ρ h0 h1 r 0

/-- Output block 4 at (r, u) is the column at row ρ r. -/
theorem out4_of (x0 : FVec Ideal S128x256 .f32) (x1 : FVec Ideal S128x64x256 .f32) (x2 : FVec Ideal S128x64 .f32)
    (N : FVec Ideal S4096x64 .f32) (P : FVec Ideal S4096x256 .f32) (E : FVec Ideal S4096x64x256 .f32) (ρ : Fin 128 → Fin 4096)
    (h0 : ∀ r k, x0 (ix2 r k) = P (ix2 (ρ r) k)) (h1 : ∀ r e k, x1 (ix3 r e k) = E (ix3 (ρ r) e k))
    (h2 : ∀ r e, x2 (ix2 r e) = N (ix2 (ρ r) e)) (r : Fin 128) (u : Fin 1) :
    KPiece.out4 x0 x1 x2 (ix2 r u) = col4 N P E (ix2 (ρ r) u) := by
  unfold KPiece.out4 col4
  refine congrArg (fun f : Fin 64 → EReal => Finset.fold min (⊤ : EReal) f (Finset.univ : Finset (Fin 64))) (funext fun e : Fin 64 => ?_)
  show Scalar.select (FloatOps.cmpf (F := Ideal) (φ := .f32) .ogt (x2 (ix2 r e)) _) (KPiece.scratch x0 x1 (ix2 r e)) ⊤
    = Scalar.select (FloatOps.cmpf (F := Ideal) (φ := .f32) .ogt (N (ix2 (ρ r) e)) _) (Cert.Acc.dist P E (ρ r) e) ⊤
  rw [scratch_of x0 x1 P E ρ h0 h1, h2]

/-- What point t writes back through window 3 is block t of the column. -/
theorem flushed3_eq (c : Dev nD) (t : Fin cfg0.N) :
    (dats m 0 c).flushed 3 t = ((cfg0.win 3).blk t).view.read (Elt Ideal) (col3 (V m c main_arg0) (V m c main_arg1)) := by
  show (cfg0.win 3).cut (grid0.coords t) ((dats m 0 c).after 3 t) = _
  rw [after0_3]
  unfold outsAt0
  dsimp only
  rw [KPiece.out3_eq]
  show (KPiece.out3 (iblk m c 0 t) (iblk m c 1 t) : S128x1.Idx → EReal)
    = fun y : S128x1.Idx => col3 (V m c main_arg0) (V m c main_arg1) (((cfg0.win 3).blk t).view.emb y)
  funext y
  obtain ⟨r, u, rfl⟩ : ∃ (r : Fin 128) (u : Fin 1), y = ix2 r u := ⟨y 0, y 1, eq_ix2 y⟩
  rw [emb3]
  exact out3_of _ _ _ _ (row t) (blk0_apply m c t) (blk1_apply m c t) r u

/-- What point t writes back through window 4 is block t of the column. -/
theorem flushed4_eq (c : Dev nD) (t : Fin cfg0.N) :
    (dats m 0 c).flushed 4 t
      = ((cfg0.win 4).blk t).view.read (Elt Ideal) (col4 (V m c main_v13) (V m c main_arg0) (V m c main_arg1)) := by
  show (cfg0.win 4).cut (grid0.coords t) ((dats m 0 c).after 4 t) = _
  rw [after0_4]
  unfold outsAt0
  dsimp only
  rw [KPiece.out4_eq]
  show (KPiece.out4 (iblk m c 0 t) (iblk m c 1 t) (iblk m c 2 t) : S128x1.Idx → EReal)
    = fun y : S128x1.Idx => col4 (V m c main_v13) (V m c main_arg0) (V m c main_arg1) (((cfg0.win 4).blk t).view.emb y)
  funext y
  obtain ⟨r, u, rfl⟩ : ∃ (r : Fin 128) (u : Fin 1), y = ix2 r u := ⟨y 0, y 1, eq_ix2 y⟩
  rw [emb4]
  exact out4_of _ _ _ _ _ _ (row t) (blk0_apply m c t) (blk1_apply m c t) (blk2_apply m c t) r u

/-- An index of the 4096 × 1 array is in point t's block iff each coordinate is in the block's range. -/
theorem mem_blk3 (t : Fin cfg0.N) (i : S4096x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v14_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v14_1).slice (win0_4.rect t)).set ↔ _
  rw [View.set_slice_whole, Rect.mem_set_unit]
  exact Iff.rfl

/-- Row b lies in the block of point b / 128. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  obtain ⟨t, ht⟩ : ∃ t : Fin cfg0.N, t.val = (i 0).val / 128 := ⟨⟨(i 0).val / 128, by omega⟩, rfl⟩
  obtain ⟨-, -, -, -, -, -, -, e30, e31, -⟩ := idx_facts t
  refine ⟨t, flush0_3 t, ?_⟩
  rw [mem_blk3]
  intro a
  match a with
  | ⟨0, _⟩ =>
    show win0_3.index t (0 : Fin 2) * 128 ≤ (i 0).val ∧ (i 0).val < win0_3.index t (0 : Fin 2) * 128 + 128
    rw [e30, ht]; omega
  | ⟨1, _⟩ =>
    show win0_3.index t (1 : Fin 2) * 1 ≤ (i 1).val ∧ (i 1).val < win0_3.index t (1 : Fin 2) * 1 + 1
    rw [e31]; omega

theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 32 := N_0
  obtain ⟨t, ht⟩ : ∃ t : Fin cfg0.N, t.val = (i 0).val / 128 := ⟨⟨(i 0).val / 128, by omega⟩, rfl⟩
  obtain ⟨-, -, -, -, -, -, -, -, -, e40, e41⟩ := idx_facts t
  refine ⟨t, flush0_4 t, ?_⟩
  rw [mem_blk4]
  intro a
  match a with
  | ⟨0, _⟩ =>
    show win0_4.index t (0 : Fin 2) * 128 ≤ (i 0).val ∧ (i 0).val < win0_4.index t (0 : Fin 2) * 128 + 128
    rw [e40, ht]; omega
  | ⟨1, _⟩ =>
    show win0_4.index t (1 : Fin 2) * 1 ≤ (i 1).val ∧ (i 1).val < win0_4.index t (1 : Fin 2) * 1 + 1
    rw [e41]; omega

/-- Output 3 after the run. -/
theorem final3 (c : Dev nD) : (dats m 0 c).arrAt 3 cfg0.N = col3 (V m c main_arg0) (V m c main_arg1) :=
  (dats m 0 c).arrAt_eq_of_cover 3 _ (fun t _ => flushed3_eq m c t) cover3

/-- Output 4 after the run. -/
theorem final4 (c : Dev nD) : (dats m 0 c).arrAt 4 cfg0.N = col4 (V m c main_v13) (V m c main_arg0) (V m c main_arg1) :=
  (dats m 0 c).arrAt_eq_of_cover 4 _ (fun t _ => flushed4_eq m c t) cover4

end Cert.KernelIdeal.KArray

end
-- ==== Proof.KHost.lean ====
/-
  The host operations around the kernel's region, read as the shared vocabulary.  Before the region the program
  computes, from the mask argument, which entity 0 is selected (`isKnown`), which entities are negatives (`negMask`,
  handed to the region as a float that is 1 on the negatives and 0 elsewhere) and which rows have a negative
  (`hasNeg`), and writes the thresholds.  After the region it re-lays the two 4096 × 1 output columns flat and applies
  the bucket accounting (`counts`, `incorrect`) to them.
-/
import proofs.«120936_j25366076850443_2_alg».proof.Proof.Gen.KernelIdeal.Frame
import proofs.«120936_j25366076850443_2_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KHost

open Cert.KernelIdeal Cert.KernelIdeal.Gen

variable (m : (ℓ : Loc nD τ sig) → Buf (Elt Ideal) ℓ)

/-! ## Before the region -/

attribute [local irreducible] Host.reduce Host.reduceWindow Host.reduceAdd in
set_option maxHeartbeats 2000000 in
/-- The mask the region is handed: the negatives, as a float. -/
theorem pre_mask (c : Dev nD) :
    (V m c main_v13 : S4096x64.Idx → EReal) = uitofp (F := Ideal) .f32 (Cert.Acc.negMask (m ((c : Thread nD τ).loc main_arg2))) := by
  dsimp only [V, V0]
  simp only [hostOps0, hostOps0_1, hostOps0_2, List.flatten_cons, List.flatten_nil, List.append_nil, List.cons_append,
    List.nil_append]
  after_results
  rfl

attribute [local irreducible] Host.reduce Host.reduceWindow Host.reduceAdd in
set_option maxHeartbeats 2000000 in
/-- Entity 0 selected, per row. -/
theorem pre_known (c : Dev nD) :
    (V m c main_v6 : S4096.Idx → BitVec 1) = Cert.Acc.isKnown (m ((c : Thread nD τ).loc main_arg2)) := by
  dsimp only [V, V0]
  simp only [hostOps0, hostOps0_1, hostOps0_2, List.flatten_cons, List.flatten_nil, List.append_nil, List.cons_append,
    List.nil_append]
  after_results
  rfl

attribute [local irreducible] Host.reduce Host.reduceWindow Host.reduceAdd in
set_option maxHeartbeats 2000000 in
/-- Some negative in the row. -/
theorem pre_hasneg (c : Dev nD) :
    (V m c main_v12 : S4096.Idx → BitVec 1) = Cert.Acc.hasNeg (m ((c : Thread nD τ).loc main_arg2)) := by
  dsimp only [V, V0]
  simp only [hostOps0, hostOps0_1, hostOps0_2, List.flatten_cons, List.flatten_nil, List.append_nil, List.cons_append,
    List.nil_append]
  after_results
  rfl

attribute [local irreducible] Host.reduce Host.reduceWindow Host.reduceAdd in
set_option maxHeartbeats 2000000 in
/-- The thresholds. -/
theorem pre_thresholds (c : Dev nD) : (V m c main_cst : S5.Idx → EReal) = Cert.Acc.thresholds := by
  dsimp only [V, V0]
  simp only [hostOps0, hostOps0_1, hostOps0_2, List.flatten_cons, List.flatten_nil, List.append_nil, List.cons_append,
    List.nil_append]
  after_results
  rfl

/-! ## After the region -/

attribute [local irreducible] Host.reduce Host.reduceWindow Host.reduceAdd in
set_option maxHeartbeats 2000000 in
/-- The category counts, from any contents the lines after the region start from. -/
theorem tail_counts (W : Valuation τ sig (Elt Ideal)) :
    (StableHlo.after (List.flatten [hostOps1, hostOps1_1, hostOps1_2, hostOps1_3, hostOps1_4, hostOps1_5, hostOps1_6]) W
        (Proc.devRef .tc main_v52) : S2x2.Idx → BitVec 32)
      = Cert.Acc.counts (W (Proc.devRef .tc main_v6)) (W (Proc.devRef .tc main_v12)) := by
  simp only [hostOps1, hostOps1_1, hostOps1_2, hostOps1_3, hostOps1_4, hostOps1_5, hostOps1_6, List.flatten_cons,
    List.flatten_nil, List.append_nil, List.cons_append, List.nil_append]
  after_results_simp
  rfl

attribute [local irreducible] Host.reduce Host.reduceWindow Host.reduceAdd in
set_option maxHeartbeats 2000000 in
/-- The incorrect counts, from any contents the lines after the region start from that hold the thresholds. -/
theorem tail_incorrect (W : Valuation τ sig (Elt Ideal))
    (hc : (W (Proc.devRef .tc main_cst) : S5.Idx → EReal) = Cert.Acc.thresholds) :
    (StableHlo.after (List.flatten [hostOps1, hostOps1_1, hostOps1_2, hostOps1_3, hostOps1_4, hostOps1_5, hostOps1_6]) W
        (Proc.devRef .tc main_v53) : S5x2x2.Idx → BitVec 32)
      = Cert.Acc.incorrect (W (Proc.devRef .tc main_v6)) (W (Proc.devRef .tc main_v12))
          (shapeCast S4096 (W (Proc.devRef .tc main_v14_0) : S4096x1.Idx → EReal) shapeCasts_S4096x1_S4096)
          (shapeCast S4096 (W (Proc.devRef .tc main_v14_1) : S4096x1.Idx → EReal) shapeCasts_S4096x1_S4096) := by
  simp only [hostOps1, hostOps1_1, hostOps1_2, hostOps1_3, hostOps1_4, hostOps1_5, hostOps1_6, List.flatten_cons,
    List.flatten_nil, List.append_nil, List.cons_append, List.nil_append]
  after_results_simp
  rw [hc]
  rfl

end Cert.KernelIdeal.KHost

end
-- ==== Proof.KRun.lean ====
/-
  The kernel program's run, read: after every weakly fair execution its two results are the bucket accounting of
  (isKnown, hasNeg, the distance to entity 0, the least distance over the negatives) of its three arguments.
  The two 4096 × 1 columns the region leaves, re-laid flat, are the specification's `posDist` and `minNeg`: a column's
  row b is entry b, and the mask the region saw is 1 exactly on the negatives, so "mask above one half" is "negative".
-/
import proofs.«120936_j25366076850443_2_alg».proof.Proof.KArray
import proofs.«120936_j25366076850443_2_alg».proof.Proof.KHost

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KRun

open Cert.KernelIdeal Cert.KernelIdeal.Gen

/-- Column 3 re-laid flat is the distance to entity 0. -/
theorem flat3 (P : FVec Ideal S4096x256 .f32) (E : FVec Ideal S4096x64x256 .f32) (h : S4096x1.ShapeCasts S4096) :
    shapeCast S4096 (KArray.col3 P E) h = Cert.Acc.posDist P E := by
  funext i
  obtain ⟨b, rfl⟩ : ∃ b : Fin 4096, i = ix1 b := ⟨i 0, eq_ix1 i⟩
  refine (shapeCast_apply _ h (ix1 b) (ix2 b (0 : Fin 1)) (by
    rw [Shape.rowMajor_val_one, Shape.rowMajor_val_two]
    show b.val * 1 + 0 = b.val
    omega)).trans rfl

/-- Column 4 re-laid flat, the mask being 1 exactly on the negatives, is the least distance over the negatives. -/
theorem flat4 (nm : IVec S4096x64 1) (P : FVec Ideal S4096x256 .f32) (E : FVec Ideal S4096x64x256 .f32)
    (h : S4096x1.ShapeCasts S4096) :
    shapeCast S4096 (KArray.col4 (uitofp (F := Ideal) .f32 nm) P E) h = Cert.Acc.minNeg nm P E := by
  funext i
  obtain ⟨b, rfl⟩ : ∃ b : Fin 4096, i = ix1 b := ⟨i 0, eq_ix1 i⟩
  refine (shapeCast_apply _ h (ix1 b) (ix2 b (0 : Fin 1)) (by
    rw [Shape.rowMajor_val_one, Shape.rowMajor_val_two]
    show b.val * 1 + 0 = b.val
    omega)).trans ?_
  unfold KArray.col4 Cert.Acc.minNeg
  refine congrArg (fun f : Fin 64 → EReal => Finset.fold min (⊤ : EReal) f (Finset.univ : Finset (Fin 64))) (funext fun e : Fin 64 => ?_)
  show Scalar.select (FloatOps.cmpf (F := Ideal) (φ := .f32) .ogt (FloatOps.uitofp .f32 (nm (ix2 b e))) (Scalar.ofBits .f32 0x3F000000#32)) _ ⊤ = _
  rw [KMin.flag_gt_half]

/-- The lines after the region, from contents that hold the thresholds, the two masks and the two columns. -/
theorem incorrect_of (W : Valuation τ sig (Elt Ideal)) (a0 : FVec Ideal S4096x256 .f32) (a1 : FVec Ideal S4096x64x256 .f32)
    (a2 : IVec S4096x64x2 32)
    (hc : (W (Proc.devRef .tc main_cst) : S5.Idx → EReal) = Cert.Acc.thresholds)
    (h6 : (W (Proc.devRef .tc main_v6) : S4096.Idx → BitVec 1) = Cert.Acc.isKnown a2)
    (h12 : (W (Proc.devRef .tc main_v12) : S4096.Idx → BitVec 1) = Cert.Acc.hasNeg a2)
    (h3 : (W (Proc.devRef .tc main_v14_0) : S4096x1.Idx → EReal) = KArray.col3 a0 a1)
    (h4 : (W (Proc.devRef .tc main_v14_1) : S4096x1.Idx → EReal) = KArray.col4 (uitofp (F := Ideal) .f32 (Cert.Acc.negMask a2)) a0 a1) :
    (StableHlo.after (List.flatten [hostOps1, hostOps1_1, hostOps1_2, hostOps1_3, hostOps1_4, hostOps1_5, hostOps1_6]) W (Proc.devRef .tc main_v53) : S5x2x2.Idx → BitVec 32)
      = Cert.Acc.resultIncorrect a0 a1 a2 := by
  rw [KHost.tail_incorrect W hc, h6, h12, h3, h4, flat3, flat4]
  rfl

theorem counts_of (W : Valuation τ sig (Elt Ideal)) (a2 : IVec S4096x64x2 32)
    (h6 : (W (Proc.devRef .tc main_v6) : S4096.Idx → BitVec 1) = Cert.Acc.isKnown a2)
    (h12 : (W (Proc.devRef .tc main_v12) : S4096.Idx → BitVec 1) = Cert.Acc.hasNeg a2) :
    (StableHlo.after (List.flatten [hostOps1, hostOps1_1, hostOps1_2, hostOps1_3, hostOps1_4, hostOps1_5, hostOps1_6]) W (Proc.devRef .tc main_v52) : S2x2.Idx → BitVec 32)
      = Cert.Acc.resultCounts a2 := by
  rw [KHost.tail_counts W, h6, h12]
  rfl

variable (m : (ℓ : Loc nD τ sig) → Buf (Elt Ideal) ℓ) (ρ : Dev nD → PrngReg)

/-- What the lines after the region start from at the two masks, the thresholds and the two output columns. -/
theorem exit_known (c : Dev nD) :
    Pipeline.withArrays (cfgs 0).spec c (V0 m c) (fun w => (dats m 0 c).arrAt w (cfgs 0).N) (Proc.devRef .tc main_v6)
      = Cert.Acc.isKnown (m ((c : Thread nD τ).loc main_arg2)) :=
  (Pipeline.withArrays_of_ne _ c (V0 m c) _ main_v6 (by exact (by decide : ∀ w, Pipeline.arrRef spec0 w ≠ main_v6))).trans (KHost.pre_known m c)

theorem exit_hasneg (c : Dev nD) :
    Pipeline.withArrays (cfgs 0).spec c (V0 m c) (fun w => (dats m 0 c).arrAt w (cfgs 0).N) (Proc.devRef .tc main_v12)
      = Cert.Acc.hasNeg (m ((c : Thread nD τ).loc main_arg2)) :=
  (Pipeline.withArrays_of_ne _ c (V0 m c) _ main_v12 (by exact (by decide : ∀ w, Pipeline.arrRef spec0 w ≠ main_v12))).trans (KHost.pre_hasneg m c)

theorem exit_thresholds (c : Dev nD) :
    Pipeline.withArrays (cfgs 0).spec c (V0 m c) (fun w => (dats m 0 c).arrAt w (cfgs 0).N) (Proc.devRef .tc main_cst)
      = Cert.Acc.thresholds :=
  (Pipeline.withArrays_of_ne _ c (V0 m c) _ main_cst (by exact (by decide : ∀ w, Pipeline.arrRef spec0 w ≠ main_cst))).trans (KHost.pre_thresholds m c)

theorem exit_col3 (c : Dev nD) :
    Pipeline.withArrays (cfgs 0).spec c (V0 m c) (fun w => (dats m 0 c).arrAt w (cfgs 0).N) (Proc.devRef .tc main_v14_0)
      = KArray.col3 (m ((c : Thread nD τ).loc main_arg0)) (m ((c : Thread nD τ).loc main_arg1)) := by
  refine (Pipeline.withArrays_arr spec0 launch0.win.arr_inj c _ _ 3).trans ?_
  rw [KArray.final3, V_main_arg0, V_main_arg1]

theorem exit_col4 (c : Dev nD) :
    Pipeline.withArrays (cfgs 0).spec c (V0 m c) (fun w => (dats m 0 c).arrAt w (cfgs 0).N) (Proc.devRef .tc main_v14_1)
      = KArray.col4 (uitofp (F := Ideal) .f32 (Cert.Acc.negMask (m ((c : Thread nD τ).loc main_arg2))))
          (m ((c : Thread nD τ).loc main_arg0)) (m ((c : Thread nD τ).loc main_arg1)) := by
  refine (Pipeline.withArrays_arr spec0 launch0.win.arr_inj c _ _ 4).trans ?_
  rw [KArray.final4, V_main_arg0, V_main_arg1, KHost.pre_mask]

/-- On every device: every weakly fair execution of the kernel program terminates with its two results at the
    specification of its arguments, the arguments unchanged. -/
theorem run : θ_run defs (onTc (τ := τ) (main (F := Ideal))) ⟨m, fun _ => 0, ρ⟩ fun r => ∀ c : Dev nD,
      r.2.mem ((c.tc : Thread nD τ).loc main_v52) = Cert.Acc.resultCounts (m ((c.tc : Thread nD τ).loc main_arg2))
      ∧ r.2.mem ((c.tc : Thread nD τ).loc main_v53)
          = Cert.Acc.resultIncorrect (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v52 (Pipeline.mem_restRefs_of main_v52 (by decide) (by decide))).trans
        (counts_of _ _ (exit_known m c) (exit_hasneg m c)),
      ((h c).2 main_v53 (Pipeline.mem_restRefs_of main_v53 (by decide) (by decide))).trans
        (incorrect_of _ _ _ _ (exit_thresholds m c) (exit_known m c) (exit_hasneg m c) (exit_col3 m c) (exit_col4 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.RefRun.lean ====
/-
  The reference program's @main as one straight line of host operations, and its run.

  @main calls eight module-local functions (a running count, two Euclidean norms, four selects and a one-hot);
  a call executes the callee's body on the call's buffers, so each call is listed here as the callee's own
  operations over that call's buffer record.  The line is cut in three consecutive pieces, each of which later
  gets a reading of its own:

  * `opsPre`  — the constants and the mask prelude (column 0 of the mask, "entity 0 is selected", the running count
    of selected entities, "selected and not the first", "some entity of the row is such");
  * `opsMid`  — the distances: the row's entity 0 minus the predicted vector, its norm; every entity minus the
    predicted vector, its norm; +∞ outside the negatives; the least over the row;
  * `opsTail` — the bucket accounting: the category 2·known + hasNeg one-hot, its column sums, the per-threshold error
    flags contracted with the one-hot, and the two conversions to integers.

  `run`: on every device, from any memory with zero counters, every weakly fair execution of @main terminates and
  leaves each buffer at the fold of the three pieces, in order, over the launch contents.
-/
import proofs.«120936_j25366076850443_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The three pieces of the line -/

/-- The thresholds' table, then the mask prelude: statements up to `%12`.  The three `main_call0.call0` lines are
    @cumsum's body (through @cumsum_0): the zero, its rank-0 broadcast, and the windowed sum over the 64 entities. -/
abbrev opsPre : List (HloOp τ sig (Elt F)) :=
  [ nullary main_cst (fun i => FloatOps.ofBits .f32 (lit0 (S5.rowMajor i))),
    unary main_arg2 main_v0 ((extractStridedSlice S4096x64x1 ![0, 0, 0] · slices_S4096x64x2_S4096x64x1_0_0_0) : (⟨S4096x64x2, .i32⟩ : BufTy).Contents (Elt F) → (⟨S4096x64x1, .i32⟩ : BufTy).Contents (Elt F)),
    reshape main_v0 main_v1 rfl shapeCasts_S4096x64x1_S4096x64,
    nullary main_c (constantI S_ 32 0#32),
    unary main_c main_v2 (broadcastInDim S4096x64 ![] bcast_S_S4096x64 : (⟨S_, .i32⟩ : BufTy).Contents (Elt F) → (⟨S4096x64, .i32⟩ : BufTy).Contents (Elt F)),
    binary main_v1 main_v2 main_v3 (cmpi .ne : (⟨S4096x64, .i32⟩ : BufTy).Contents (Elt F) → (⟨S4096x64, .i32⟩ : BufTy).Contents (Elt F) → (⟨S4096x64, .i1⟩ : BufTy).Contents (Elt F)),
    unary main_v3 main_v4 (id : (⟨S4096x64, .i1⟩ : BufTy).Contents (Elt F) → (⟨S4096x64, .i1⟩ : BufTy).Contents (Elt F)),
    unary main_v4 main_v5 ((extractStridedSlice S4096x1 ![0, 0] · slices_S4096x64_S4096x1_0_0) : (⟨S4096x64, .i1⟩ : BufTy).Contents (Elt F) → (⟨S4096x1, .i1⟩ : BufTy).Contents (Elt F)),
    reshape main_v5 main_v6 rfl shapeCasts_S4096x1_S4096,
    unary main_v4 main_v7 ((extui 32 · natLt_1_32) : (⟨S4096x64, .i1⟩ : BufTy).Contents (Elt F) → (⟨S4096x64, .i32⟩ : BufTy).Contents (Elt F)),
    TRef.nullary main_call0.call0.c (constantI S_ 32 0#32),
    TRef.unary main_call0.call0.c main_call0.call0.v0 (broadcastInDim S_ ![] bcast_S_S_),
    TRef.binary (.of main_v7 : TRef sig ⟨S4096x64, .i32⟩) main_call0.call0.v0 main_call0.call0.v1 (fun x v => Host.reduceWindow IntOp.addi ![1, 64] ![1, 1] ![0, 63] ![0, 0] x v reduceWindows_S4096x64_S4096x64_w1s1p0_0_w64s1p63_0 h_S_),
    nullary main_c_0 (constantI S_ 32 1#32),
    unary main_c_0 main_v9 (broadcastInDim S4096x64 ![] bcast_S_S4096x64 : (⟨S_, .i32⟩ : BufTy).Contents (Elt F) → (⟨S4096x64, .i32⟩ : BufTy).Contents (Elt F)),
    binary main_v8 main_v9 main_v10 (cmpi .sgt : (⟨S4096x64, .i32⟩ : BufTy).Contents (Elt F) → (⟨S4096x64, .i32⟩ : BufTy).Contents (Elt F) → (⟨S4096x64, .i1⟩ : BufTy).Contents (Elt F)),
    binary main_v4 main_v10 main_v11 (andi : (⟨S4096x64, .i1⟩ : BufTy).Contents (Elt F) → (⟨S4096x64, .i1⟩ : BufTy).Contents (Elt F) → (⟨S4096x64, .i1⟩ : BufTy).Contents (Elt F)),
    nullary main_c_1 (constantI S_ 1 0#1),
    binary main_v11 main_c_1 main_v12 ((fun x v => Host.reduce IntOp.ori x v reducesTo_S4096x64_S4096_d1 h_S_) : (⟨S4096x64, .i1⟩ : BufTy).Contents (Elt F) → (⟨S_, .i1⟩ : BufTy).Contents (Elt F) → (⟨S4096, .i1⟩ : BufTy).Contents (Elt F)) ]

/-- The distances: statements `%13` … `%22`.  The four `main_call1` lines are @norm's body (square, zero, sum over
    the 256 features, square root), the four `main_call2` lines @norm_1's (the same over the last of three axes), the
    three `main_call3` lines @_where's (the +∞ converted to its own type, broadcast, the select). -/
abbrev opsMid : List (HloOp τ sig (Elt F)) :=
  [ unary main_arg1 main_v13 ((extractStridedSlice S4096x1x256 ![0, 0, 0] · slices_S4096x64x256_S4096x1x256_0_0_0) : (⟨S4096x64x256, .f32⟩ : BufTy).Contents (Elt F) → (⟨S4096x1x256, .f32⟩ : BufTy).Contents (Elt F)),
    reshape main_v13 main_v14 rfl shapeCasts_S4096x1x256_S4096x256,
    binary main_v14 main_arg0 main_v15 (subf : (⟨S4096x256, .f32⟩ : BufTy).Contents (Elt F) → (⟨S4096x256, .f32⟩ : BufTy).Contents (Elt F) → (⟨S4096x256, .f32⟩ : BufTy).Contents (Elt F)),
    TRef.binary (.of main_v15 : TRef sig ⟨S4096x256, .f32⟩) (.of main_v15 : TRef sig ⟨S4096x256, .f32⟩) main_call1.v0 mulf,
    TRef.nullary main_call1.cst (constant S_ .f32 0x00000000#32),
    TRef.binary main_call1.v0 main_call1.cst main_call1.v1 (fun x v => Host.reduceAdd x v reducesTo_S4096x256_S4096_d1 h_S_),
    TRef.unary main_call1.v1 main_call1.v2 Host.sqrt,
    unary main_arg0 main_v17 (broadcastInDim S4096x1x256 ![0, 2] bcast_S4096x256_S4096x1x256_0_2 : (⟨S4096x256, .f32⟩ : BufTy).Contents (Elt F) → (⟨S4096x1x256, .f32⟩ : BufTy).Contents (Elt F)),
    unary main_v17 main_v18 (broadcastInDim S4096x64x256 ![0, 1, 2] bcast_S4096x1x256_S4096x64x256_0_1_2 : (⟨S4096x1x256, .f32⟩ : BufTy).Contents (Elt F) → (⟨S4096x64x256, .f32⟩ : BufTy).Contents (Elt F)),
    binary main_arg1 main_v18 main_v19 (subf : (⟨S4096x64x256, .f32⟩ : BufTy).Contents (Elt F) → (⟨S4096x64x256, .f32⟩ : BufTy).Contents (Elt F) → (⟨S4096x64x256, .f32⟩ : BufTy).Contents (Elt F)),
    TRef.binary (.of main_v19 : TRef sig ⟨S4096x64x256, .f32⟩) (.of main_v19 : TRef sig ⟨S4096x64x256, .f32⟩) main_call2.v0 mulf,
    TRef.nullary main_call2.cst (constant S_ .f32 0x00000000#32),
    TRef.binary main_call2.v0 main_call2.cst main_call2.v1 (fun x v => Host.reduceAdd x v reducesTo_S4096x64x256_S4096x64_d2 h_S_),
    TRef.unary main_call2.v1 main_call2.v2 Host.sqrt,
    nullary main_cst_2 (constant S_ .f32 0x7F800000#32),
    TRef.unary (.of main_cst_2 : TRef sig ⟨S_, .f32⟩) main_call3.v0 id,
    TRef.unary main_call3.v0 main_call3.v1 (broadcastInDim S4096x64 ![] bcast_S_S4096x64),
    TRef.ternary (.of main_v11 : TRef sig ⟨S4096x64, .i1⟩) (.of main_v20 : TRef sig ⟨S4096x64, .f32⟩) main_call3.v1 main_call3.v2 select,
    nullary main_cst_3 (constant S_ .f32 0x7F800000#32),
    binary main_v21 main_cst_3 main_v22 ((fun x v => Host.reduce FloatOps.minimumf x v reducesTo_S4096x64_S4096_d1 h_S_) : (⟨S4096x64, .f32⟩ : BufTy).Contents (Elt F) → (⟨S_, .f32⟩ : BufTy).Contents (Elt F) → (⟨S4096, .f32⟩ : BufTy).Contents (Elt F)) ]

/-- The bucket accounting: statements `%23` … `%59`.  The six `main_call4` lines are @_one_hot's body, the three
    `main_call5` lines @_where_2's (two broadcasts and the select), the two `main_call6` and the two `main_call7` lines
    @_where_3's (one broadcast and the select). -/
abbrev opsTail : List (HloOp τ sig (Elt F)) :=
  [ unary main_v6 main_v23 ((extui 32 · natLt_1_32) : (⟨S4096, .i1⟩ : BufTy).Contents (Elt F) → (⟨S4096, .i32⟩ : BufTy).Contents (Elt F)),
    nullary main_c_4 (constantI S_ 32 2#32),
    unary main_c_4 main_v24 (broadcastInDim S4096 ![] bcast_S_S4096 : (⟨S_, .i32⟩ : BufTy).Contents (Elt F) → (⟨S4096, .i32⟩ : BufTy).Contents (Elt F)),
    binary main_v23 main_v24 main_v25 (muli : (⟨S4096, .i32⟩ : BufTy).Contents (Elt F) → (⟨S4096, .i32⟩ : BufTy).Contents (Elt F) → (⟨S4096, .i32⟩ : BufTy).Contents (Elt F)),
    unary main_v12 main_v26 ((extui 32 · natLt_1_32) : (⟨S4096, .i1⟩ : BufTy).Contents (Elt F) → (⟨S4096, .i32⟩ : BufTy).Contents (Elt F)),
    binary main_v25 main_v26 main_v27 (addi : (⟨S4096, .i32⟩ : BufTy).Contents (Elt F) → (⟨S4096, .i32⟩ : BufTy).Contents (Elt F) → (⟨S4096, .i32⟩ : BufTy).Contents (Elt F)),
    TRef.unary (.of main_v27 : TRef sig ⟨S4096, .i32⟩) main_call4.v0 (broadcastInDim S4096x1 ![0] bcast_S4096_S4096x1_0),
    TRef.nullary main_call4.v1 (iotaInDim S1x4 32 1),
    TRef.unary main_call4.v0 main_call4.v2 (broadcastInDim S4096x4 ![0, 1] bcast_S4096x1_S4096x4_0_1),
    TRef.unary main_call4.v1 main_call4.v3 (broadcastInDim S4096x4 ![0, 1] bcast_S1x4_S4096x4_0_1),
    TRef.binary main_call4.v2 main_call4.v3 main_call4.v4 (cmpi .eq),
    TRef.unary main_call4.v4 main_call4.v5 (uitofp .f32),
    nullary main_cst_5 (constant S_ .f32 0x00000000#32),
    binary main_v28 main_cst_5 main_v29 ((fun x v => Host.reduceAdd x v reducesTo_S4096x4_S4_d0 h_S_) : (⟨S4096x4, .f32⟩ : BufTy).Contents (Elt F) → (⟨S_, .f32⟩ : BufTy).Contents (Elt F) → (⟨S4, .f32⟩ : BufTy).Contents (Elt F)),
    reshape main_v29 main_v30 rfl shapeCasts_S4_S2x2,
    unary main_cst main_v31 (broadcastInDim S5x1 ![0] bcast_S5_S5x1_0 : (⟨S5, .f32⟩ : BufTy).Contents (Elt F) → (⟨S5x1, .f32⟩ : BufTy).Contents (Elt F)),
    unary main_v6 main_v32 (broadcastInDim S1x4096 ![1] bcast_S4096_S1x4096_1 : (⟨S4096, .i1⟩ : BufTy).Contents (Elt F) → (⟨S1x4096, .i1⟩ : BufTy).Contents (Elt F)),
    unary main_v12 main_v33 (broadcastInDim S1x4096 ![1] bcast_S4096_S1x4096_1 : (⟨S4096, .i1⟩ : BufTy).Contents (Elt F) → (⟨S1x4096, .i1⟩ : BufTy).Contents (Elt F)),
    unary main_v16 main_v34 (broadcastInDim S1x4096 ![1] bcast_S4096_S1x4096_1 : (⟨S4096, .f32⟩ : BufTy).Contents (Elt F) → (⟨S1x4096, .f32⟩ : BufTy).Contents (Elt F)),
    unary main_v22 main_v35 (broadcastInDim S1x4096 ![1] bcast_S4096_S1x4096_1 : (⟨S4096, .f32⟩ : BufTy).Contents (Elt F) → (⟨S1x4096, .f32⟩ : BufTy).Contents (Elt F)),
    unary main_v33 main_v36 (noti : (⟨S1x4096, .i1⟩ : BufTy).Contents (Elt F) → (⟨S1x4096, .i1⟩ : BufTy).Contents (Elt F)),
    binary main_v32 main_v36 main_v37 (andi : (⟨S1x4096, .i1⟩ : BufTy).Contents (Elt F) → (⟨S1x4096, .i1⟩ : BufTy).Contents (Elt F) → (⟨S1x4096, .i1⟩ : BufTy).Contents (Elt F)),
    unary main_v31 main_v38 (broadcastInDim S5x4096 ![0, 1] bcast_S5x1_S5x4096_0_1 : (⟨S5x1, .f32⟩ : BufTy).Contents (Elt F) → (⟨S5x4096, .f32⟩ : BufTy).Contents (Elt F)),
    unary main_v34 main_v39 (broadcastInDim S5x4096 ![0, 1] bcast_S1x4096_S5x4096_0_1 : (⟨S1x4096, .f32⟩ : BufTy).Contents (Elt F) → (⟨S5x4096, .f32⟩ : BufTy).Contents (Elt F)),
    binary main_v38 main_v39 main_v40 (cmpf .olt : (⟨S5x4096, .f32⟩ : BufTy).Contents (Elt F) → (⟨S5x4096, .f32⟩ : BufTy).Contents (Elt F) → (⟨S5x4096, .i1⟩ : BufTy).Contents (Elt F)),
    unary main_v32 main_v41 (noti : (⟨S1x4096, .i1⟩ : BufTy).Contents (Elt F) → (⟨S1x4096, .i1⟩ : BufTy).Contents (Elt F)),
    binary main_v41 main_v33 main_v42 (andi : (⟨S1x4096, .i1⟩ : BufTy).Contents (Elt F) → (⟨S1x4096, .i1⟩ : BufTy).Contents (Elt F) → (⟨S1x4096, .i1⟩ : BufTy).Contents (Elt F)),
    unary main_v35 main_v43 (broadcastInDim S5x4096 ![0, 1] bcast_S1x4096_S5x4096_0_1 : (⟨S1x4096, .f32⟩ : BufTy).Contents (Elt F) → (⟨S5x4096, .f32⟩ : BufTy).Contents (Elt F)),
    unary main_v31 main_v44 (broadcastInDim S5x4096 ![0, 1] bcast_S5x1_S5x4096_0_1 : (⟨S5x1, .f32⟩ : BufTy).Contents (Elt F) → (⟨S5x4096, .f32⟩ : BufTy).Contents (Elt F)),
    binary main_v43 main_v44 main_v45 (cmpf .olt : (⟨S5x4096, .f32⟩ : BufTy).Contents (Elt F) → (⟨S5x4096, .f32⟩ : BufTy).Contents (Elt F) → (⟨S5x4096, .i1⟩ : BufTy).Contents (Elt F)),
    binary main_v32 main_v33 main_v46 (andi : (⟨S1x4096, .i1⟩ : BufTy).Contents (Elt F) → (⟨S1x4096, .i1⟩ : BufTy).Contents (Elt F) → (⟨S1x4096, .i1⟩ : BufTy).Contents (Elt F)),
    unary main_v35 main_v47 (broadcastInDim S5x4096 ![0, 1] bcast_S1x4096_S5x4096_0_1 : (⟨S1x4096, .f32⟩ : BufTy).Contents (Elt F) → (⟨S5x4096, .f32⟩ : BufTy).Contents (Elt F)),
    unary main_v31 main_v48 (broadcastInDim S5x4096 ![0, 1] bcast_S5x1_S5x4096_0_1 : (⟨S5x1, .f32⟩ : BufTy).Contents (Elt F) → (⟨S5x4096, .f32⟩ : BufTy).Contents (Elt F)),
    binary main_v47 main_v48 main_v49 (minimumf : (⟨S5x4096, .f32⟩ : BufTy).Contents (Elt F) → (⟨S5x4096, .f32⟩ : BufTy).Contents (Elt F) → (⟨S5x4096, .f32⟩ : BufTy).Contents (Elt F)),
    unary main_v34 main_v50 (broadcastInDim S5x4096 ![0, 1] bcast_S1x4096_S5x4096_0_1 : (⟨S1x4096, .f32⟩ : BufTy).Contents (Elt F) → (⟨S5x4096, .f32⟩ : BufTy).Contents (Elt F)),
    binary main_v49 main_v50 main_v51 (cmpf .olt : (⟨S5x4096, .f32⟩ : BufTy).Contents (Elt F) → (⟨S5x4096, .f32⟩ : BufTy).Contents (Elt F) → (⟨S5x4096, .i1⟩ : BufTy).Contents (Elt F)),
    nullary main_c_6 (constantI S_ 1 0#1),
    TRef.unary (.of main_v46 : TRef sig ⟨S1x4096, .i1⟩) main_call5.v0 (broadcastInDim S5x4096 ![0, 1] bcast_S1x4096_S5x4096_0_1),
    TRef.unary (.of main_c_6 : TRef sig ⟨S_, .i1⟩) main_call5.v1 (broadcastInDim S5x4096 ![] bcast_S_S5x4096),
    TRef.ternary main_call5.v0 (.of main_v51 : TRef sig ⟨S5x4096, .i1⟩) main_call5.v1 main_call5.v2 select,
    TRef.unary (.of main_v42 : TRef sig ⟨S1x4096, .i1⟩) main_call6.v0 (broadcastInDim S5x4096 ![0, 1] bcast_S1x4096_S5x4096_0_1),
    TRef.ternary main_call6.v0 (.of main_v45 : TRef sig ⟨S5x4096, .i1⟩) (.of main_v52 : TRef sig ⟨S5x4096, .i1⟩) main_call6.v1 select,
    TRef.unary (.of main_v37 : TRef sig ⟨S1x4096, .i1⟩) main_call7.v0 (broadcastInDim S5x4096 ![0, 1] bcast_S1x4096_S5x4096_0_1),
    TRef.ternary main_call7.v0 (.of main_v40 : TRef sig ⟨S5x4096, .i1⟩) (.of main_v53 : TRef sig ⟨S5x4096, .i1⟩) main_call7.v1 select,
    unary main_v54 main_v55 (uitofp .f32 : (⟨S5x4096, .i1⟩ : BufTy).Contents (Elt F) → (⟨S5x4096, .f32⟩ : BufTy).Contents (Elt F)),
    binary main_v55 main_v28 main_v56 ((fun l r => Host.dotGeneral dot_S5x4096_S4096x4_S5x4_1_0_0_1_n_n none l r) : (⟨S5x4096, .f32⟩ : BufTy).Contents (Elt F) → (⟨S4096x4, .f32⟩ : BufTy).Contents (Elt F) → (⟨S5x4, .f32⟩ : BufTy).Contents (Elt F)),
    reshape main_v56 main_v57 rfl shapeCasts_S5x4_S5x2x2,
    unary main_v30 main_v58 (fptosi 32 : (⟨S2x2, .f32⟩ : BufTy).Contents (Elt F) → (⟨S2x2, .i32⟩ : BufTy).Contents (Elt F)),
    unary main_v57 main_v59 (fptosi 32 : (⟨S5x2x2, .f32⟩ : BufTy).Contents (Elt F) → (⟨S5x2x2, .i32⟩ : BufTy).Contents (Elt F)) ]

/-- @main's operations, in order. -/
abbrev ops : List (HloOp τ sig (Elt F)) := opsPre ++ (opsMid ++ opsTail)

/-! ## @main is that line -/

-- the binds re-associated: one rewrite under the chain per statement, eighty-eight of them
set_option maxRecDepth 4096 in
set_option maxHeartbeats 4000000 in
/-- @main is the straight line: the two windows in order, each function's definition unfolded at its call and each
    record at its fields; both sides are one chain of `hlo` steps once sequencing is re-associated. -/
theorem main_eq (c : Dev nD) : main (F := F) c = seq ops := by
  simp only [main, main_part0, main_part1, fn_cumsum.body, fn_cumsum_0.body, fn_norm.body, fn_norm_1.body, fn_where.body,
    fn_one_hot.body, fn_where_2.body, fn_where_3.body, seq_append, seq, bind_assoc, pure_bind]

/-! ## The side conditions of the run -/

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches TensorCore references only. -/
theorem opsPre_sub : (opsPre : List (HloOp τ sig (Elt F))).Forall fun op => op.bufs ⊆ tcRefs τ sig :=
  ⟨nullary_bufs_sub .., unary_bufs_sub .., reshape_bufs_sub .., nullary_bufs_sub .., unary_bufs_sub .., binary_bufs_sub .., unary_bufs_sub .., unary_bufs_sub .., reshape_bufs_sub .., unary_bufs_sub .., nullary_bufs_sub .., unary_bufs_sub .., binary_bufs_sub .., nullary_bufs_sub .., unary_bufs_sub .., binary_bufs_sub .., binary_bufs_sub .., nullary_bufs_sub .., binary_bufs_sub ..⟩
theorem opsMid_sub : (opsMid : List (HloOp τ sig (Elt F))).Forall fun op => op.bufs ⊆ tcRefs τ sig :=
  ⟨unary_bufs_sub .., reshape_bufs_sub .., binary_bufs_sub .., binary_bufs_sub .., nullary_bufs_sub .., binary_bufs_sub .., unary_bufs_sub .., unary_bufs_sub .., unary_bufs_sub .., binary_bufs_sub .., binary_bufs_sub .., nullary_bufs_sub .., binary_bufs_sub .., unary_bufs_sub .., nullary_bufs_sub .., unary_bufs_sub .., unary_bufs_sub .., ternary_bufs_sub .., nullary_bufs_sub .., binary_bufs_sub ..⟩
theorem opsTail_sub : (opsTail : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., nullary_bufs_sub .., unary_bufs_sub .., unary_bufs_sub .., binary_bufs_sub .., unary_bufs_sub .., nullary_bufs_sub .., binary_bufs_sub .., reshape_bufs_sub .., unary_bufs_sub .., unary_bufs_sub .., unary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub .., unary_bufs_sub .., ternary_bufs_sub .., unary_bufs_sub .., ternary_bufs_sub .., unary_bufs_sub .., binary_bufs_sub .., reshape_bufs_sub .., unary_bufs_sub .., unary_bufs_sub ..⟩
theorem ops_sub : (ops : List (HloOp τ sig (Elt F))).Forall fun op => op.bufs ⊆ tcRefs τ sig :=
  List.forall_append.2 ⟨opsPre_sub, List.forall_append.2 ⟨opsMid_sub, opsTail_sub⟩⟩

/-- Every operation determines its results (none allocates a buffer at contents not chosen). -/
theorem opsPre_fresh : ∀ op ∈ (opsPre : List (HloOp τ sig (Elt F))), op.fresh = ∅ := by
  intro _ h; (repeat (cases h with | head => rfl | tail _ h => ?_)); exact nomatch h
theorem opsMid_fresh : ∀ op ∈ (opsMid : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.1 h).elim (opsPre_fresh op) fun h => (List.mem_append.1 h).elim (opsMid_fresh op) (opsTail_fresh op)

/-! ## The run -/

/-- The fold of the whole line is the three pieces' folds, one after the other. -/
theorem after_ops (V : Valuation τ sig (Elt F)) : after ops V = after opsTail (after opsMid (after opsPre V)) := by
  rw [after_append, after_append]

/-- At the compiled mesh, for any float values, from any memory with zero counters: every weakly fair execution of @main
    on the TensorCores terminates, and every final state has each TensorCore buffer at the fold of the three pieces over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsMid (after opsPre (launchContents m c))) (b : DevRef τ sig) :=
  (θ_run defs _ _).mono (fun _ h c b => (h c b).trans (congrFun (after_ops _) _))
    (run_seq scopedRefs_eq scopedSems_eq defs main (fun _ => ops) main_eq (fun _ => ops_sub) m ρ (fun _ => ops_fresh))

end Cert.ReferenceIdeal.RefRun

end
-- ==== Proof.RefValue.lean ====
/-
  The reference's fold read as the shared specification.

  The run leaves each buffer at the fold of the three pieces of @main over the launch contents.  Each piece is read by
  itself, from ANY contents `V` of the buffers:

  * the prelude leaves the thresholds' table, "entity 0 is selected", the negatives' mask and "the row has a negative",
    each as the specification's function of the mask input (the same operations, so the two terms are one);
  * the middle piece leaves, per row, the distance to entity 0 and the least distance over the negatives.  This is where
    the two sides are spelt differently: the reference slices, reshapes, broadcasts and reduces whole arrays, the
    specification is written index by index.  Read at a row `b` (and entity `e`): the slice [:, 0:1, :] and the reshape
    pick entity 0, the two broadcasts repeat the row's predicted vector, the sum over the last axis from 0 is
    `∑ₖ (ev[b,e,k] − p[b,k])²`, the square root is the distance, the select against +∞ and the minimum over the
    entities from +∞ is the fold of `min`;
  * the last piece applies the bucket accounting to those four arrays and the thresholds: the specification's `counts`
    and `incorrect`, which are never opened.

  No finiteness is used: both sides are the same extended-real expression at every index.
-/
import proofs.«120936_j25366076850443_2_alg».proof.Proof.Spec
import proofs.«120936_j25366076850443_2_alg».proof.Proof.RefRun
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx
open scoped BigOperators

/-! ## The reference's distances as terms of the inputs -/

/-- Entity 0 of each row minus the row's predicted vector. -/
def diff0 (p : FVec Ideal S4096x256 .f32) (ev : FVec Ideal S4096x64x256 .f32) : FVec Ideal S4096x256 .f32 :=
  subf (shapeCast S4096x256 (extractStridedSlice S4096x1x256 ![0, 0, 0] ev slices_S4096x64x256_S4096x1x256_0_0_0) shapeCasts_S4096x1x256_S4096x256) p

/-- Its Euclidean norm, per row. -/
def pos (p : FVec Ideal S4096x256 .f32) (ev : FVec Ideal S4096x64x256 .f32) : FVec Ideal S4096 .f32 :=
  Host.sqrt (F := Ideal) (Host.reduceAdd (F := Ideal) (mulf (diff0 p ev) (diff0 p ev)) (constant (F := Ideal) S_ .f32 0x00000000#32) reducesTo_S4096x256_S4096_d1 h_S_)

/-- Every entity minus its row's predicted vector. -/
def diffAll (p : FVec Ideal S4096x256 .f32) (ev : FVec Ideal S4096x64x256 .f32) : FVec Ideal S4096x64x256 .f32 :=
  subf ev (broadcastInDim S4096x64x256 ![0, 1, 2] bcast_S4096x1x256_S4096x64x256_0_1_2 (broadcastInDim S4096x1x256 ![0, 2] bcast_S4096x256_S4096x1x256_0_2 p))

/-- Its Euclidean norm, per row and entity. -/
def distAll (p : FVec Ideal S4096x256 .f32) (ev : FVec Ideal S4096x64x256 .f32) : FVec Ideal S4096x64 .f32 :=
  Host.sqrt (F := Ideal) (Host.reduceAdd (F := Ideal) (mulf (diffAll p ev) (diffAll p ev)) (constant (F := Ideal) S_ .f32 0x00000000#32) reducesTo_S4096x64x256_S4096x64_d2 h_S_)

/-- The least distance over the entities of the mask, +∞ standing for an entity outside it. -/
def minOver (nm : IVec S4096x64 1) (p : FVec Ideal S4096x256 .f32) (ev : FVec Ideal S4096x64x256 .f32) : FVec Ideal S4096 .f32 :=
  Host.reduce FloatOps.minimumf
    (select nm (distAll p ev) (broadcastInDim S4096x64 ![] bcast_S_S4096x64 (id (constant (F := Ideal) S_ .f32 0x7F800000#32))))
    (constant (F := Ideal) S_ .f32 0x7F800000#32) reducesTo_S4096x64_S4096_d1 h_S_

variable (p : FVec Ideal S4096x256 .f32) (ev : FVec Ideal S4096x64x256 .f32) (nm : IVec S4096x64 1)

/-! ## Read at an index -/

/-- The slice [:, 0:1, :] and the reshape to [4096, 256] keep the row and the feature and fix the entity at 0. -/
theorem diff0_apply (b : Fin 4096) (k : Fin 256) : diff0 p ev (ix2 b k) = ev (ix3 b 0 k) - p (ix2 b k) := by
  show shapeCast S4096x256 (extractStridedSlice S4096x1x256 ![0, 0, 0] ev slices_S4096x64x256_S4096x1x256_0_0_0) shapeCasts_S4096x1x256_S4096x256 (ix2 b k) - p (ix2 b k) = _
  refine congrArg (· - p (ix2 b k)) ?_
  refine (shapeCast_apply _ shapeCasts_S4096x1x256_S4096x256 (ix2 b k) (ix3 b (0 : Fin 1) k) ?_).trans ?_
  · rw [Shape.rowMajor_val_three, Shape.rowMajor_val_two]
    show (b.val * 1 + 0) * 256 + k.val = b.val * 256 + k.val
    omega
  · exact slice3_axis1_apply 0 ev slices_S4096x64x256_S4096x1x256_0_0_0 b (0 : Fin 1) k (0 : Fin 64) rfl

/-- The two broadcasts [4096, 256] → [4096, 1, 256] → [4096, 64, 256] repeat the row's vector for every entity. -/
theorem diffAll_apply (b : Fin 4096) (e : Fin 64) (k : Fin 256) : diffAll p ev (ix3 b e k) = ev (ix3 b e k) - p (ix2 b k) := by
  show ev (ix3 b e k) - broadcastInDim S4096x64x256 ![0, 1, 2] bcast_S4096x1x256_S4096x64x256_0_1_2 (broadcastInDim S4096x1x256 ![0, 2] bcast_S4096x256_S4096x1x256_0_2 p) (ix3 b e k) = _
  refine congrArg (ev (ix3 b e k) - ·) ?_
  refine (broadcastInDim_apply _ bcast_S4096x1x256_S4096x64x256_0_1_2 _ (ix3 b e k) (ix3 b (0 : Fin 1) k) (fun a => ?_)).trans ?_
  · match a with
    | ⟨0, _⟩ => rfl
    | ⟨1, _⟩ => rfl
    | ⟨2, _⟩ => rfl
  · exact broadcastInDim_apply _ bcast_S4096x256_S4096x1x256_0_2 p (ix3 b (0 : Fin 1) k) (ix2 b k) (fun a => by
      match a with
      | ⟨0, _⟩ => rfl
      | ⟨1, _⟩ => rfl)

/-- The row shape's one-axis reductions, as the facts that name the inserted index. -/
theorem reduces_256 : S4096x256.Reduces [1] S4096 := by decide
theorem reduces_64x256 : S4096x64x256.Reduces [2] S4096x64 := by decide
theorem reduces_64 : S4096x64.Reduces [1] S4096 := by decide

/-- The positive distance: the sum over the 256 features of the squared differences, under the square root. -/
theorem pos_apply (b : Fin 4096) : pos p ev (ix1 b) = Cert.Acc.dist p ev b 0 := by
  show Ideal.sqrt (Ideal.hostReduceAdd reducesTo_S4096x256_S4096_d1 (mulf (diff0 p ev) (diff0 p ev)) (Ideal.ofBits .f32 0x00000000#32) (ix1 b)) = _
  rw [Ideal.hostReduceAdd_single reducesTo_S4096x256_S4096_d1 reduces_256, Ideal.ofBits_zero_f32, zero_add]
  refine congrArg Ideal.sqrt ?_
  show ∑ k : Fin 256, mulf (diff0 p ev) (diff0 p ev) (reduces_256.lift (ix1 b) k) = ∑ k : Fin 256, _
  refine Finset.sum_congr rfl fun k _ => ?_
  have hl : reduces_256.lift (ix1 b) k = ix2 b k := by
    funext a; match a with | ⟨0, _⟩ => rfl | ⟨1, _⟩ => rfl
  rw [hl, mulf_apply, diff0_apply]

/-- Every entity's distance likewise. -/
theorem distAll_apply (b : Fin 4096) (e : Fin 64) : distAll p ev (ix2 b e) = Cert.Acc.dist p ev b e := by
  show Ideal.sqrt (Ideal.hostReduceAdd reducesTo_S4096x64x256_S4096x64_d2 (mulf (diffAll p ev) (diffAll p ev)) (Ideal.ofBits .f32 0x00000000#32) (ix2 b e)) = _
  rw [Ideal.hostReduceAdd_single reducesTo_S4096x64x256_S4096x64_d2 reduces_64x256, Ideal.ofBits_zero_f32, zero_add]
  refine congrArg Ideal.sqrt ?_
  show ∑ k : Fin 256, mulf (diffAll p ev) (diffAll p ev) (reduces_64x256.lift (ix2 b e) k) = ∑ k : Fin 256, _
  refine Finset.sum_congr rfl fun k _ => ?_
  have hl : reduces_64x256.lift (ix2 b e) k = ix3 b e k := by
    funext a; match a with | ⟨0, _⟩ => rfl | ⟨1, _⟩ => rfl | ⟨2, _⟩ => rfl
  rw [hl, mulf_apply, diffAll_apply]

/-- The word 0x7F800000 is +∞. -/
theorem ofBits_inf : Ideal.ofBits .f32 0x7F800000#32 = (⊤ : EReal) := by simp [Ideal.ofBits, Ideal.ieee]

/-- The least distance over the negatives: the fold of `min` from +∞ over the 64 entities. -/
theorem minOver_apply (b : Fin 4096) : minOver nm p ev (ix1 b) = Cert.Acc.minNeg nm p ev (ix1 b) := by
  unfold minOver
  rw [Host.reduce_eq_fold_single FloatOps.minimumf _ _ reducesTo_S4096x64_S4096_d1 reduces_64 h_S_ (ix1 b)]
  show (Finset.univ : Finset (Fin 64)).fold min (Ideal.ofBits .f32 0x7F800000#32) _ = (Finset.univ : Finset (Fin 64)).fold min (⊤ : EReal) _
  rw [ofBits_inf]
  refine Finset.fold_congr fun e _ => ?_
  have hl : reduces_64.lift (ix1 b) e = ix2 b e := by
    funext a; match a with | ⟨0, _⟩ => rfl | ⟨1, _⟩ => rfl
  show select nm (distAll p ev) _ (reduces_64.lift (ix1 b) e) = Scalar.select (nm (ix2 b e)) (Cert.Acc.dist p ev b e) ⊤
  rw [hl, select_apply, distAll_apply]
  refine congrArg (Scalar.select (nm (ix2 b e)) (Cert.Acc.dist p ev b e)) ?_
  show Ideal.ofBits .f32 0x7F800000#32 = ⊤
  exact ofBits_inf

theorem pos_eq : pos p ev = Cert.Acc.posDist p ev := by
  funext i
  obtain ⟨b, rfl⟩ : ∃ b : Fin 4096, i = ix1 b := ⟨i 0, eq_ix1 i⟩
  exact pos_apply p ev b

theorem minOver_eq : minOver nm p ev = Cert.Acc.minNeg nm p ev := by
  funext i
  obtain ⟨b, rfl⟩ : ∃ b : Fin 4096, i = ix1 b := ⟨i 0, eq_ix1 i⟩
  exact minOver_apply p ev nm b

/-! ## The three pieces read from any contents -/

section Read

-- the reductions stay folded while two spellings of one term are compared: the comparison matches their operands
-- and never looks inside them
attribute [local irreducible] Host.reduce Host.reduceWindow Host.reduceAdd Host.sqrt

variable (V : Valuation τ sig (Elt Ideal))

/-! ### The prelude -/

/-- The thresholds' table is the specification's. -/
theorem pre_cst : after opsPre V (main_cst : DevRef τ sig) = Cert.Acc.thresholds := by
  after_results
  rfl
/-- "Entity 0 of the row is selected". -/
theorem pre_known : after opsPre V (main_v6 : DevRef τ sig) = Cert.Acc.isKnown (V (main_arg2 : DevRef τ sig)) := by
  after_results
  rfl
/-- "Selected, and not the first selected entity of its row". -/
theorem pre_negMask : after opsPre V (main_v11 : DevRef τ sig) = Cert.Acc.negMask (V (main_arg2 : DevRef τ sig)) := by
  after_results
  rfl
/-- "Some entity of the row is a negative". -/
theorem pre_hasNeg : after opsPre V (main_v12 : DevRef τ sig) = Cert.Acc.hasNeg (V (main_arg2 : DevRef τ sig)) := by
  after_results
  rfl
/-- The prelude writes none of the three inputs. -/
theorem pre_arg0 : after opsPre V (main_arg0 : DevRef τ sig) = V (main_arg0 : DevRef τ sig) := by after_results
theorem pre_arg1 : after opsPre V (main_arg1 : DevRef τ sig) = V (main_arg1 : DevRef τ sig) := by after_results
theorem pre_arg2 : after opsPre V (main_arg2 : DevRef τ sig) = V (main_arg2 : DevRef τ sig) := by after_results

/-! ### The distances -/

/-- The distance to entity 0: the reference's term of the two float inputs, then that term index by index. -/
theorem mid_pos : after opsMid V (main_v16 : DevRef τ sig)
    = Cert.Acc.posDist (V (main_arg0 : DevRef τ sig)) (V (main_arg1 : DevRef τ sig)) := by
  have h : after opsMid V (main_v16 : DevRef τ sig) = pos (V (main_arg0 : DevRef τ sig)) (V (main_arg1 : DevRef τ sig)) := by
    after_results
    rfl
  exact h.trans (pos_eq _ _)
/-- The least distance over the negatives, the mask read where the prelude left it. -/
theorem mid_minNeg : after opsMid V (main_v22 : DevRef τ sig)
    = Cert.Acc.minNeg (V (main_v11 : DevRef τ sig)) (V (main_arg0 : DevRef τ sig)) (V (main_arg1 : DevRef τ sig)) := by
  have h : after opsMid V (main_v22 : DevRef τ sig)
      = minOver (V (main_v11 : DevRef τ sig)) (V (main_arg0 : DevRef τ sig)) (V (main_arg1 : DevRef τ sig)) := by
    after_results
    rfl
  exact h.trans (minOver_eq _ _ _)
/-- The middle piece writes neither the prelude's results that the accounting reads nor the inputs. -/
theorem mid_cst : after opsMid V (main_cst : DevRef τ sig) = V (main_cst : DevRef τ sig) := by after_results
theorem mid_known : after opsMid V (main_v6 : DevRef τ sig) = V (main_v6 : DevRef τ sig) := by after_results
theorem mid_hasNeg : after opsMid V (main_v12 : DevRef τ sig) = V (main_v12 : DevRef τ sig) := by after_results
theorem mid_arg0 : after opsMid V (main_arg0 : DevRef τ sig) = V (main_arg0 : DevRef τ sig) := by after_results
theorem mid_arg1 : after opsMid V (main_arg1 : DevRef τ sig) = V (main_arg1 : DevRef τ sig) := by after_results
theorem mid_arg2 : after opsMid V (main_arg2 : DevRef τ sig) = V (main_arg2 : DevRef τ sig) := by after_results

/-! ### The bucket accounting -/

/-- How many rows fall in each category: the specification's `counts` of the two row flags. -/
theorem tail_counts : after opsTail V (main_v58 : DevRef τ sig)
    = Cert.Acc.counts (V (main_v6 : DevRef τ sig)) (V (main_v12 : DevRef τ sig)) := by
  after_results_simp
  rfl
/-- The per-threshold error counts: the specification's `incorrect` of the two row flags and the two distances, once
    the table the piece reads is the specification's thresholds. -/
theorem tail_incorrect (hc : V (main_cst : DevRef τ sig) = Cert.Acc.thresholds) : after opsTail V (main_v59 : DevRef τ sig)
    = Cert.Acc.incorrect (V (main_v6 : DevRef τ sig)) (V (main_v12 : DevRef τ sig)) (V (main_v16 : DevRef τ sig))
        (V (main_v22 : DevRef τ sig)) := by
  after_results_simp
  rw [hc]
  rfl
/-- The accounting writes none of the three inputs. -/
theorem tail_arg0 : after opsTail V (main_arg0 : DevRef τ sig) = V (main_arg0 : DevRef τ sig) := by after_results_simp
theorem tail_arg1 : after opsTail V (main_arg1 : DevRef τ sig) = V (main_arg1 : DevRef τ sig) := by after_results_simp
theorem tail_arg2 : after opsTail V (main_arg2 : DevRef τ sig) = V (main_arg2 : DevRef τ sig) := by after_results_simp

end Read

/-! ## The whole line, from the launch contents -/

section Whole

variable (V : Valuation τ sig (Elt Ideal))

/-- The category counts are the specification's, of the mask input. -/
theorem counts_eq : after opsTail (after opsMid (after opsPre V)) (main_v58 : DevRef τ sig)
    = Cert.Acc.resultCounts (V (main_arg2 : DevRef τ sig)) := by
  rw [tail_counts, mid_known, mid_hasNeg, pre_known, pre_hasNeg]
  rfl

/-- The error counts are the specification's, of the three inputs. -/
theorem incorrect_eq : after opsTail (after opsMid (after opsPre V)) (main_v59 : DevRef τ sig)
    = Cert.Acc.resultIncorrect (V (main_arg0 : DevRef τ sig)) (V (main_arg1 : DevRef τ sig)) (V (main_arg2 : DevRef τ sig)) := by
  rw [tail_incorrect _ ((mid_cst _).trans (pre_cst _)), mid_known, mid_hasNeg, mid_pos, mid_minNeg, pre_known, pre_hasNeg,
    pre_negMask, pre_arg0, pre_arg1]
  rfl

/-- No piece writes an input. -/
theorem arg0_eq : after opsTail (after opsMid (after opsPre V)) (main_arg0 : DevRef τ sig) = V (main_arg0 : DevRef τ sig) := by
  rw [tail_arg0, mid_arg0, pre_arg0]
theorem arg1_eq : after opsTail (after opsMid (after opsPre V)) (main_arg1 : DevRef τ sig) = V (main_arg1 : DevRef τ sig) := by
  rw [tail_arg1, mid_arg1, pre_arg1]
theorem arg2_eq : after opsTail (after opsMid (after opsPre V)) (main_arg2 : DevRef τ sig) = V (main_arg2 : DevRef τ sig) := by
  rw [tail_arg2, mid_arg2, pre_arg2]

end Whole

/-- At the ideal values, from any memory with zero counters: every weakly fair execution of the reference's @main
    terminates with the two results at the specification's functions of the three inputs' launch contents, and the inputs
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = Cert.Acc.resultCounts (m ((c.tc : Thread nD τ).loc main_arg2))
      ∧ r.2.mem ((c.tc : Thread nD τ).loc main_v59)
          = Cert.Acc.resultIncorrect (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v58).trans (counts_eq (launchContents m c)),
       (h c main_v59).trans (incorrect_eq (launchContents m c)),
       (h c main_arg0).trans (arg0_eq (launchContents m c)),
       (h c main_arg1).trans (arg1_eq (launchContents m c)),
       (h c main_arg2).trans (arg2_eq (launchContents m c))⟩)
    (RefRun.run m ρ)

end Cert.ReferenceIdeal.RefValue

end
-- ==== Proof.lean ====
/-
  The proof of `Cert.Claim` for the distance-and-bucket kernel.

  The mathematics.  For each of 4096 rows the programs compute, from a predicted vector p (256 features), 64 entity
  vectors and a selection mask: the Euclidean distance from p to entity 0, and the least Euclidean distance from p to
  the row's "negatives" (the selected entities other than the first selected one; +∞ when there are none); then a
  bucket accounting over rows against five thresholds.  The kernel computes the 4096 × 64 distances tile by tile — 32
  row blocks of 128 rows, inside each block four column chunks of 16 entities written to a scratch that is read back
  whole — takes column 0 and the masked row minimum of the scratch, and leaves the accounting to the host lines after
  the region.  The reference computes the same distances whole, with the distance to entity 0 from a slice of its own.
  On the extended reals both are, index by index, the same expressions: √(∑ₖ (ev[b,e,k] − p[b,k])²) with the same 256
  summands in the same order, and the fold of `min` from +∞ over the 64 entities; the kernel's mask is the float 1 on a
  negative and 0 elsewhere, so its test "mask > 1/2" is the reference's "is a negative".  No finiteness of the inputs
  is used: nothing is re-associated, cancelled or distributed.  The accounting is the same operations in both
  programs and is carried as one function of (isKnown, hasNeg, posDist, minNeg), never opened.

  The pieces: Proof/Spec.lean (the shared vocabulary), Proof/KBody.lean and Proof/KMin.lean (the kernel's arithmetic at
  an index), Proof/KPiece.lean (what one grid point writes), Proof/KArray.lean (the 32 blocks tile the outputs),
  Proof/KHost.lean (the host lines around the region), Proof/KRun.lean (the kernel program's results),
  Proof/RefRun.lean and Proof/RefValue.lean (the reference's run and its results).  The frames of the two kernel
  programs are the generated frame certificates; the reference's frame is its run with the results dropped; the
  ideal pass rewrote nothing, so `preserves` is `True`.
-/
import proofs.«120936_j25366076850443_2_alg».proof.Defs
import proofs.«120936_j25366076850443_2_alg».proof.Proof.Gen.Kernel
import proofs.«120936_j25366076850443_2_alg».proof.Proof.Gen.Kernel.Frame
import proofs.«120936_j25366076850443_2_alg».proof.Proof.Gen.KernelIdeal
import proofs.«120936_j25366076850443_2_alg».proof.Proof.Gen.KernelIdeal.Frame
import proofs.«120936_j25366076850443_2_alg».proof.Proof.Gen.ReferenceIdeal
import proofs.«120936_j25366076850443_2_alg».proof.Proof.Gen.Pre_finite_inputs
import proofs.«120936_j25366076850443_2_alg».proof.Proof.KRun
import proofs.«120936_j25366076850443_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

/-- Both programs end with the specification's two results of their (agreeing) arguments. -/
theorem algebraic : Cert.algebraic_KernelIdeal_ReferenceIdeal := by
  intro m ρ m' ρ' _ hagree
  refine ⟨fun c => Cert.Acc.resultCounts (m ((c.tc : Thread _ _).loc Cert.KernelIdeal.main_arg2)),
    fun c => Cert.Acc.resultIncorrect (m ((c.tc : Thread _ _).loc Cert.KernelIdeal.main_arg0)) (m ((c.tc : Thread _ _).loc Cert.KernelIdeal.main_arg1)) (m ((c.tc : Thread _ _).loc Cert.KernelIdeal.main_arg2)),
    Cert.KernelIdeal.KRun.run m ρ, ?_⟩
  refine (θ_run Cert.ReferenceIdeal.defs _ _).mono (fun _ h c => ?_) (Cert.ReferenceIdeal.RefValue.run m' ρ')
  obtain ⟨h1, h2, h3⟩ := h c
  refine ⟨h1.trans ?_, h2.trans ?_, h3⟩
  · rw [(hagree c).2.2]
  · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
